-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192 : Shape := ⟨2, ![4, 8192]⟩
abbrev S4x512x3 : Shape := ⟨3, ![4, 512, 3]⟩
abbrev S4x512 : Shape := ⟨2, ![4, 512]⟩
abbrev S4x512x512 : Shape := ⟨3, ![4, 512, 512]⟩
abbrev S4x512x1 : Shape := ⟨3, ![4, 512, 1]⟩
abbrev S4x1x512 : Shape := ⟨3, ![4, 1, 512]⟩
abbrev S_ : Shape := ⟨0, ![]⟩

abbrev nBuf : Space → Nat
  | .hbm => 17
  | .vmem => 14
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192, .f32⟩
  | .hbm, ⟨3, _⟩ => ⟨S4x8192, .f32⟩
  | .hbm, ⟨4, _⟩ => ⟨S4x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S4x512x3, .f32⟩
  | .local _ .vmem, ⟨1, _⟩ => ⟨S4x512x3, .f32⟩
  | .local _ .vmem, ⟨2, _⟩ => ⟨S4x512x3, .f32⟩
  | .local _ .vmem, ⟨3, _⟩ => ⟨S4x512x3, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512x3, .f32⟩
  | .local _ .vmem, ⟨8, _⟩ => ⟨S4x512x3, .f32⟩
  | .local _ .vmem, ⟨9, _⟩ => ⟨S4x512x3, .f32⟩
  | .local _ .vmem, ⟨10, _⟩ => ⟨S4x512x3, .f32⟩
  | .local _ .vmem, ⟨11, _⟩ => ⟨S4x512, .f32⟩
  | .local _ .vmem, ⟨12, _⟩ => ⟨S4x512, .f32⟩
  | .local _ .vmem, ⟨13, _⟩ => ⟨S4x512, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_15 : BitVec 32 := 0#32
  let v30 : BitVec 1 := Scalar.cmpi .ne v29 c0_i32_15
  v30

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_15 : BitVec 32 := 0#32
  let v30 : BitVec 1 := Scalar.cmpi .ne v29 c0_i32_15
  v30

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S4x512x3_S4x512x3_0_0_0 : ∀ a, (![0, 0, 0] : Fin 3 → Nat) a + S4x512x3.size a ≤ S4x512x3.size a
  h_S4x512x3 : 0 < S4x512x3.numel
  reduces_S4x512x3_S4x512 : S4x512x3.Reduces [2] S4x512
  bitsLt_bf16_f32 : FTy.bits .bf16 < FTy.bits .f32
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  reduces_S4x512x512_S4x512 : S4x512x512.Reduces [2] S4x512
  reducesTo_S4x8192_S_d0_1 : S4x8192.ReducesTo [0, 1] S_
  h_S_ : 0 < S_.numel
  dot_S4x512x3_S4x512x3_S4x512x512_2_2_1_1_0_0_wf : DotDims.WF S4x512x3 S4x512x3 S4x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S4x8192x3.size a
  hwx0_0 : ∀ i : grid0.Coords, EltTy.bits .f32 = 32 ∨ (Rect.block (s := S4x8192x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S4x8192x3.size a
  hwx0_1 : ∀ i : grid0.Coords, EltTy.bits .f32 = 32 ∨ (Rect.block (s := S4x8192x3) S4x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x3.size a ≤ S4x8192x3.size a
  hwx1_0 : ∀ i : grid1.Coords, EltTy.bits .f32 = 32 ∨ (Rect.block (s := S4x8192x3) S4x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x3.size a ≤ S4x8192x3.size a
  hwx1_1 : ∀ i : grid1.Coords, EltTy.bits .f32 = 32 ∨ (Rect.block (s := S4x8192x3) S4x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512.size a ≤ S4x8192.size a
  hwx1_2 : ∀ i : grid1.Coords, EltTy.bits .f32 = 32 ∨ (Rect.block (s := S4x8192) S4x512.size (cc1_transform_2 i) (hinb1_2 i)).WholeWords (EltTy.packing .f32)

variable [Facts₀]

def dot_S4x512x3_S4x512x3_S4x512x512_2_2_1_1_0_0 : DotDims S4x512x3 S4x512x3 S4x512x512 where
  lhsContracting := [2]
  rhsContracting := [2]
  lhsNonContracting := [1]
  rhsNonContracting := [1]
  lhsBatch := [0]
  rhsBatch := [0]
  wf := dot_S4x512x3_S4x512x3_S4x512x512_2_2_1_1_0_0_wf

abbrev win0_0 : Pipeline.Window sig grid0 :=
  Pipeline.Window.ofSpec (Memref.whole main_arg0) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S4x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 38
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S4x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4x8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Kernel.Body.lean ====
import proofs.«112426_j38843684225041_1_alg».proof.Proof.Gen.Kernel.Launch
import proofs.«112426_j38843684225041_1_alg».proof.Proof.Gen.Kernel.Skeleton
import proofs.«112426_j38843684225041_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-
  The kernel body run on whole staging buffers, in each of the three situations the 16 × 16 grid meets:
  the first column tile (the running minimum is reset to +∞ and then lowered by this tile's distances),
  a middle one (the running minimum the previous point left is lowered), and the last one (lowered, and
  copied into the output block). What the scratch holds afterwards is the body's one arithmetic term
  applied to the two input blocks and the previous running minimum.
-/
namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, in closed form over the grid

The grid is 16 × 16, point t = 16·(row tile) + (column tile). The body resets its running minimum when the column
tile is 0 and writes the minimum out when the column tile is 15. Both calls run the same body. -/

/-- The column tile is the first one. -/
abbrev condFirst (i : grid0.Coords) : Prop := (Scalar.cmpi .ne (Scalar.extui (Scalar.cmpi .eq (BitVec.ofNat 32 (i 1).val) 0#32)) 0#32) = 1#1
/-- The column tile is the last one. -/
abbrev condLast (i : grid0.Coords) : Prop := k0_cond2 i = 1#1

theorem hcondFirst : ∀ t : Fin cfg0.N, condFirst (grid0.coords t) ↔ t.val % 16 = 0 :=
  (by decide +kernel : ∀ t : Fin grid0.N, condFirst (grid0.coords t) ↔ t.val % 16 = 0)
theorem hcondLast : ∀ t : Fin cfg0.N, condLast (grid0.coords t) ↔ t.val % 16 = 15 :=
  (by decide +kernel : ∀ t : Fin grid0.N, condLast (grid0.coords t) ↔ t.val % 16 = 15)

set_option maxRecDepth 65536 in
/-- The second call's body is the first call's: the same text over the same grid. -/
theorem cc1_eq_cc0 : cc1__knn_min_sq_kernel (F := F) = cc0__knn_min_sq_kernel (F := F) := rfl

theorem hz2 : (![0, 0] : Fin 2 → Nat) = fun _ => 0 := by funext a; fin_cases a <;> rfl
theorem hz3 : (![0, 0, 0] : Fin 3 → Nat) = fun _ => 0 := by funext a; fin_cases a <;> rfl

/-! ## The body on any whole staging memrefs, case by case -/

set_option maxHeartbeats 1000000 in
/-- At the first column tile: whatever the scratch held, it ends at the body's term over the reset value; the output block is untouched. -/
theorem run_first (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hc0 : condFirst i) (hc1 : ¬condLast i)
    (x0 x1 : Vec F S4x512x3 .f32) (xo xs : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (k0_pay2 x0 x1 k0_pay1)) -∗ K ⟨⟩))
      ⊢ wp frame (wpE (defs₀ (F := F)) Variants.none c none) E (cc0__knn_min_sq_kernel i arg2 harg2 arg3 harg3 arg4 harg4 arg5 harg5) K := by
  simp only [cc0__knn_min_sq_kernel_eq_skeleton]; unfold cc0__knn_min_sq_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  rw [View.read_writes_eq_canon _ _ _ (fun y => ⟨_, List.mem_cons.mpr (Or.inl rfl), View.mem_set_unit_zero hz2 Facts₀.inb_S4x512_S4x512_0_0 y⟩), View.canon_cons_unit_zero hz2, View.readCov_unit_zero _ hz2]
  simp only [View.readAt_eq_ld, harg2.read_unread, harg3.read_unread, harg5.read_unread, View.ld_unit_zero (S := S4x512x3) hz3, View.ld_unit_zero (S := S4x512) hz2]

set_option maxHeartbeats 1000000 in
/-- At a middle column tile: the scratch ends at the body's term over what it held; the output block is untouched. -/
theorem run_mid (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hc0 : ¬condFirst i) (hc1 : ¬condLast i)
    (x0 x1 : Vec F S4x512x3 .f32) (xo xs : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (k0_pay2 x0 x1 xs)) -∗ K ⟨⟩))
      ⊢ wp frame (wpE (defs₀ (F := F)) Variants.none c none) E (cc0__knn_min_sq_kernel i arg2 harg2 arg3 harg3 arg4 harg4 arg5 harg5) K := by
  simp only [cc0__knn_min_sq_kernel_eq_skeleton]; unfold cc0__knn_min_sq_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  rw [View.read_writes_eq_canon _ _ _ (fun y => ⟨_, List.mem_cons.mpr (Or.inl rfl), View.mem_set_unit_zero hz2 Facts₀.inb_S4x512_S4x512_0_0 y⟩), View.canon_unit_zero hz2]
  simp only [View.readAt_eq_ld, harg2.read_unread, harg3.read_unread, harg5.read_unread, View.ld_unit_zero (S := S4x512x3) hz3, View.ld_unit_zero (S := S4x512) hz2]

set_option maxHeartbeats 1000000 in
/-- At the last column tile: the scratch ends at the body's term over what it held, and the output block holds the same. -/
theorem run_last (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hc0 : ¬condFirst i) (hc1 : condLast i)
    (x0 x1 : Vec F S4x512x3 .f32) (xo xs : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare (k0_pay2 x0 x1 xs) ∗ owns (c : Thread nD τ) arg5 fullShare (k0_pay2 x0 x1 xs)) -∗ K ⟨⟩))
      ⊢ wp frame (wpE (defs₀ (F := F)) Variants.none c none) E (cc0__knn_min_sq_kernel i arg2 harg2 arg3 harg3 arg4 harg4 arg5 harg5) K := by
  simp only [cc0__knn_min_sq_kernel_eq_skeleton]; unfold cc0__knn_min_sq_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (fun y => ⟨_, List.mem_cons.mpr (Or.inl rfl), View.mem_set_unit_zero hz2 Facts₀.inb_S4x512_S4x512_0_0 y⟩), View.canon_unit_zero hz2, View.readCov_unit_zero _ hz2]
    simp only [View.readAt_eq_ld, harg2.read_unread, harg3.read_unread, harg5.read_unread, View.ld_unit_zero (S := S4x512x3) hz3, View.ld_unit_zero (S := S4x512) hz2]
  iexists _; isplitr
  swap; · iexact HS
  ipureintro
  sl_unfold_run_names
  rw [View.read_writes_eq_canon _ _ _ (fun y => ⟨_, List.mem_cons.mpr (Or.inl rfl), View.mem_set_unit_zero hz2 Facts₀.inb_S4x512_S4x512_0_0 y⟩), View.canon_unit_zero hz2]
  simp only [View.readAt_eq_ld, harg2.read_unread, harg3.read_unread, harg5.read_unread, View.ld_unit_zero (S := S4x512x3) hz3, View.ld_unit_zero (S := S4x512) hz2]

end Cert.Kernel.Body

end
-- ==== Proof.Kernel.Data.lean ====
import proofs.«112426_j38843684225041_1_alg».proof.Proof.Kernel.Body

set_option maxRecDepth 16384

noncomputable section

/-
  The proof data of the two calls' pipelines. Each call walks a 16 × 16 grid of (row tile, column tile) points; at
  every point the body lowers a running minimum kept in a scratch buffer by the distances between the point's row
  block of one cloud and its column block of the other; the output block is written at the last column tile of each
  row tile. The data say what every staging buffer and the scratch hold after each point.
-/
namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Call 0: the proof data of its pipeline, at the entry contents `V` -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, and the call's scratch. -/
abbrev ms0_0 (t : Fin cfg0.N) : Memref sig .tc .vmem S4x512x3 .f32 := win0_0.stage (cfg0.slots t 0)
abbrev hs0_0 (t : Fin cfg0.N) : (ms0_0 t).IsWhole := Facts₀.hstage0_0 ((cfg0.slots t 0).cast Facts₀.nbuf0_0)
abbrev ms0_1 (t : Fin cfg0.N) : Memref sig .tc .vmem S4x512x3 .f32 := win0_1.stage (cfg0.slots t 1)
abbrev hs0_1 (t : Fin cfg0.N) : (ms0_1 t).IsWhole := Facts₀.hstage0_1 ((cfg0.slots t 1).cast Facts₀.nbuf0_1)
abbrev ms0_2 (t : Fin cfg0.N) : Memref sig .tc .vmem S4x512 .f32 := win0_2.stage (cfg0.slots t 2)
abbrev hs0_2 (t : Fin cfg0.N) : (ms0_2 t).IsWhole := Facts₀.hstage0_2 ((cfg0.slots t 2).cast Facts₀.nbuf0_2)
abbrev scM0 : Memref sig .tc .vmem S4x512 .f32 := Memref.whole cc0_scratch0

theorem hcondFirst0 : ∀ t : Fin cfg0.N, condFirst (grid0.coords t) ↔ t.val % 16 = 0 :=
  (by decide +kernel : ∀ t : Fin grid0.N, condFirst (grid0.coords t) ↔ t.val % 16 = 0)
theorem hcondLast0 : ∀ t : Fin cfg0.N, condLast (grid0.coords t) ↔ t.val % 16 = 15 :=
  (by decide +kernel : ∀ t : Fin grid0.N, condLast (grid0.coords t) ↔ t.val % 16 = 15)

/-- The inputs are never idle; the output is idle exactly off the last column tile, where it is not written back either. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem idleAt0_2 : ∀ t : Fin cfg0.N, ¬ t.val % 16 = 15 → cfg0.idle 2 (grid0.coords t) = true :=
  (by decide +kernel : ∀ t : Fin grid0.N, ¬ t.val % 16 = 15 → cfg0.idle 2 (grid0.coords t) = true)
theorem liveAt0_2 : ∀ t : Fin cfg0.N, t.val % 16 = 15 → cfg0.idle 2 (grid0.coords t) = false :=
  (by decide +kernel : ∀ t : Fin grid0.N, t.val % 16 = 15 → cfg0.idle 2 (grid0.coords t) = false)
theorem noFlush0_2 (t : Fin cfg0.N) (h : ¬ t.val % 16 = 15) : (cfg0.win 2).flush t = false :=
  Bool.eq_false_iff.mpr fun hf => h ((flush0_2 t).mp hf)

/-- THE RUNNING MINIMUM. What the scratch holds after the body at point `n`: the body's term of the point's two input
    blocks and of the reset value at a first column tile, of what the point before left otherwise. -/
def accAt0 (c : Dev nD) : (n : ℕ) → n < cfg0.N → Vec F S4x512 .f32
  | 0, hn => k0_pay2 (iblk0 V c 0 ⟨0, hn⟩) (iblk0 V c 1 ⟨0, hn⟩) k0_pay1
  | n + 1, hn => k0_pay2 (iblk0 V c 0 ⟨n + 1, hn⟩) (iblk0 V c 1 ⟨n + 1, hn⟩)
      (if (n + 1) % 16 = 0 then k0_pay1 else accAt0 c n (Nat.lt_of_succ_lt hn))

theorem accAt0_first (c : Dev nD) (t : Fin cfg0.N) (h : t.val % 16 = 0) :
    accAt0 V c t.val t.isLt = k0_pay2 (iblk0 V c 0 t) (iblk0 V c 1 t) k0_pay1 := by
  obtain ⟨n, hn⟩ := t
  cases n with
  | zero => rfl
  | succ n => exact congrArg (k0_pay2 (iblk0 V c 0 ⟨n + 1, hn⟩) (iblk0 V c 1 ⟨n + 1, hn⟩)) (if_pos h)

theorem accAt0_next (c : Dev nD) (t : Fin cfg0.N) (h : ¬ t.val % 16 = 0) :
    accAt0 V c t.val t.isLt = k0_pay2 (iblk0 V c 0 t) (iblk0 V c 1 t) (accAt0 V c (t.val - 1) (Nat.lt_of_le_of_lt (Nat.sub_le _ _) t.isLt)) := by
  obtain ⟨n, hn⟩ := t
  cases n with
  | zero => exact absurd (Nat.zero_mod _) h
  | succ n => exact congrArg (k0_pay2 (iblk0 V c 0 ⟨n + 1, hn⟩) (iblk0 V c 1 ⟨n + 1, hn⟩)) (if_neg h)

/-- The scoped buffers that are neither this call's staging buffers nor its scratch (the other call's), at anything. -/
abbrev others0 (c : Dev nD) : sProp 𝕄 :=
  Pipeline.scopedRestBut (Ix := Unit) (Name := ℕ) (U := UR sig nD τ) (Lvl := ℕ) (Val := Elt F) spec0 c [cc0_scratch0]

/-- The class invariant with the scratch split off as a memref owned at some contents. -/
theorem PhiA0_eq (c : Dev nD) :
    (Pipeline.ΦA spec0 c : sProp 𝕄)
      = iprop((iprop(∃ d, owns (c : Thread nD τ) scM0 fullShare d) ∗ others0 (F := F) c) ∗ (∃ r, prngReg c r)) := by
  unfold Pipeline.ΦA
  rw [Pipeline.scopedRest_split_of_list spec0 c [cc0_scratch0] (by decide) (by decide)]
  simp only [scM0, owns_whole]; rfl

/-- The region invariant before position `n`: at the start the class's (the scratch at anything); afterwards the
    scratch at the running minimum the point before left, the other scoped buffers at anything, the generator
    register at some state. -/
def PhiS0 (c : Dev nD) : (n : ℕ) → n ≤ cfg0.N → sProp 𝕄
  | 0, _ => Pipeline.ΦA spec0 c
  | n + 1, hn => iprop((owns (c : Thread nD τ) scM0 fullShare (accAt0 V c n hn) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (accAt0 V c n hn) ∗ others0 (F := F) c) ∗ (∃ r, prngReg c r)) := rfl
theorem PhiS0_pos (c : Dev nD) (n : ℕ) (h : n ≤ cfg0.N) (hz : n ≠ 0) :
    PhiS0 V c n h = iprop((owns (c : Thread nD τ) scM0 fullShare (accAt0 V c (n - 1) (by omega)) ∗ others0 (F := F) c) ∗ (∃ r, prngReg c r)) := by
  cases n with
  | zero => exact absurd rfl hz
  | succ n => rfl

/-- The proof data: the arrays as the call finds them; after the body each input's buffer at its block and the output's
    at the running minimum (written back only at the last column tile, where it is the row tile's minimum over all
    column tiles); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point of call 0 -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the column tile says which of the three situations
    the point is in; the invariant hands over the scratch (at anything at the very first point, at the previous point's
    running minimum later) and takes it back at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 256 := lt_of_lt_of_eq t.isLt (show cfg0.N = 256 from N_0)
  by_cases h0 : t.val % 16 = 0
  · have h1 : ¬ t.val % 16 = 15 := by omega
    rw [Dat.leavesExact_idle (dat0 V c) 2 t (idleAt0_2 t h1) (noFlush0_2 t h1)]
    rw [accAt0_first V c t h0]
    by_cases hz : t.val = 0
    · rw [PhiS0_castSucc V c t, PhiS0_zero V c _ _ hz, PhiA0_eq]
      iintro ⟨⟨⟨⟨%ds, HS⟩, Hr⟩, Hg⟩, Ho, ⟨%d0, H0⟩, ⟨%d1, H1⟩, ⟨%d2, H2⟩⟩
      iapply (run_first c (grid0.coords t) _ (hs0_0 t) _ (hs0_1 t) _ (hs0_2 t) _ (Memref.isWhole_whole _) ((hcondFirst0 t).mpr h0) (fun h => h1 ((hcondLast0 t).mp h)) (iblk0 V c 0 t) (iblk0 V c 1 t) _ ds Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, Hr⟩, Hg⟩, Ho, ⟨%d0, H0⟩, ⟨%d1, H1⟩, ⟨%d2, H2⟩⟩
      iapply (run_first c (grid0.coords t) _ (hs0_0 t) _ (hs0_1 t) _ (hs0_2 t) _ (Memref.isWhole_whole _) ((hcondFirst0 t).mpr h0) (fun h => h1 ((hcondLast0 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
  · have hz : t.val ≠ 0 := fun e => h0 (by rw [e])
    rw [accAt0_next V c t h0, PhiS0_castSucc V c t, PhiS0_pos V c _ _ hz]
    by_cases h1 : t.val % 16 = 15
    · rw [show (dat0 V c).leavesExact 2 t = owns (c : Thread nD τ) (ms0_2 t) fullShare ((dat0 V c).after 2 t) from by
        unfold Dat.leavesExact; rw [liveAt0_2 t h1], after0_2, accAt0_next V c t h0]
      iintro ⟨⟨⟨HS, Hr⟩, Hg⟩, Ho, ⟨%d0, H0⟩, ⟨%d1, H1⟩, ⟨%d2, H2⟩⟩
      iapply (run_last c (grid0.coords t) _ (hs0_0 t) _ (hs0_1 t) _ (hs0_2 t) _ (Memref.isWhole_whole _) (fun h => h0 ((hcondFirst0 t).mp h)) ((hcondLast0 t).mpr h1) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · rw [Dat.leavesExact_idle (dat0 V c) 2 t (idleAt0_2 t h1) (noFlush0_2 t h1)]
      iintro ⟨⟨⟨HS, Hr⟩, Hg⟩, Ho, ⟨%d0, H0⟩, ⟨%d1, H1⟩, ⟨%d2, H2⟩⟩
      iapply (run_mid c (grid0.coords t) _ (hs0_0 t) _ (hs0_1 t) _ (hs0_2 t) _ (Memref.isWhole_whole _) (fun h => h0 ((hcondFirst0 t).mp h)) (fun h => h1 ((hcondLast0 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point; after the last point the invariant gives
    it back, the running minimum's value forgotten. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 256 := N_0; omega), PhiA0_eq]
  iintro ⟨⟨HS, Hr⟩, Hg⟩
  isplitl [HS Hr]
  · isplitl [HS]; · iexists _; iexact HS
    iexact Hr
  iexact Hg

/-! # Call 1: the proof data of its pipeline, at the entry contents `V` -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, and the call's scratch. -/
abbrev ms1_0 (t : Fin cfg1.N) : Memref sig .tc .vmem S4x512x3 .f32 := win1_0.stage (cfg1.slots t 0)
abbrev hs1_0 (t : Fin cfg1.N) : (ms1_0 t).IsWhole := Facts₀.hstage1_0 ((cfg1.slots t 0).cast Facts₀.nbuf1_0)
abbrev ms1_1 (t : Fin cfg1.N) : Memref sig .tc .vmem S4x512x3 .f32 := win1_1.stage (cfg1.slots t 1)
abbrev hs1_1 (t : Fin cfg1.N) : (ms1_1 t).IsWhole := Facts₀.hstage1_1 ((cfg1.slots t 1).cast Facts₀.nbuf1_1)
abbrev ms1_2 (t : Fin cfg1.N) : Memref sig .tc .vmem S4x512 .f32 := win1_2.stage (cfg1.slots t 2)
abbrev hs1_2 (t : Fin cfg1.N) : (ms1_2 t).IsWhole := Facts₀.hstage1_2 ((cfg1.slots t 2).cast Facts₀.nbuf1_2)
abbrev scM1 : Memref sig .tc .vmem S4x512 .f32 := Memref.whole cc1_scratch0

theorem hcondFirst1 : ∀ t : Fin cfg1.N, condFirst (grid1.coords t) ↔ t.val % 16 = 0 :=
  (by decide +kernel : ∀ t : Fin grid1.N, condFirst (grid1.coords t) ↔ t.val % 16 = 0)
theorem hcondLast1 : ∀ t : Fin cfg1.N, condLast (grid1.coords t) ↔ t.val % 16 = 15 :=
  (by decide +kernel : ∀ t : Fin grid1.N, condLast (grid1.coords t) ↔ t.val % 16 = 15)

/-- The inputs are never idle; the output is idle exactly off the last column tile, where it is not written back either. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem idleAt1_2 : ∀ t : Fin cfg1.N, ¬ t.val % 16 = 15 → cfg1.idle 2 (grid1.coords t) = true :=
  (by decide +kernel : ∀ t : Fin grid1.N, ¬ t.val % 16 = 15 → cfg1.idle 2 (grid1.coords t) = true)
theorem liveAt1_2 : ∀ t : Fin cfg1.N, t.val % 16 = 15 → cfg1.idle 2 (grid1.coords t) = false :=
  (by decide +kernel : ∀ t : Fin grid1.N, t.val % 16 = 15 → cfg1.idle 2 (grid1.coords t) = false)
theorem noFlush1_2 (t : Fin cfg1.N) (h : ¬ t.val % 16 = 15) : (cfg1.win 2).flush t = false :=
  Bool.eq_false_iff.mpr fun hf => h ((flush1_2 t).mp hf)

/-- THE RUNNING MINIMUM. What the scratch holds after the body at point `n`: the body's term of the point's two input
    blocks and of the reset value at a first column tile, of what the point before left otherwise. -/
def accAt1 (c : Dev nD) : (n : ℕ) → n < cfg1.N → Vec F S4x512 .f32
  | 0, hn => k0_pay2 (iblk1 V c 0 ⟨0, hn⟩) (iblk1 V c 1 ⟨0, hn⟩) k0_pay1
  | n + 1, hn => k0_pay2 (iblk1 V c 0 ⟨n + 1, hn⟩) (iblk1 V c 1 ⟨n + 1, hn⟩)
      (if (n + 1) % 16 = 0 then k0_pay1 else accAt1 c n (Nat.lt_of_succ_lt hn))

theorem accAt1_first (c : Dev nD) (t : Fin cfg1.N) (h : t.val % 16 = 0) :
    accAt1 V c t.val t.isLt = k0_pay2 (iblk1 V c 0 t) (iblk1 V c 1 t) k0_pay1 := by
  obtain ⟨n, hn⟩ := t
  cases n with
  | zero => rfl
  | succ n => exact congrArg (k0_pay2 (iblk1 V c 0 ⟨n + 1, hn⟩) (iblk1 V c 1 ⟨n + 1, hn⟩)) (if_pos h)

theorem accAt1_next (c : Dev nD) (t : Fin cfg1.N) (h : ¬ t.val % 16 = 0) :
    accAt1 V c t.val t.isLt = k0_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h
  | succ n => exact congrArg (k0_pay2 (iblk1 V c 0 ⟨n + 1, hn⟩) (iblk1 V c 1 ⟨n + 1, hn⟩)) (if_neg h)

/-- The scoped buffers that are neither this call's staging buffers nor its scratch (the other call's), at anything. -/
abbrev others1 (c : Dev nD) : sProp 𝕄 :=
  Pipeline.scopedRestBut (Ix := Unit) (Name := ℕ) (U := UR sig nD τ) (Lvl := ℕ) (Val := Elt F) spec1 c [cc1_scratch0]

/-- The class invariant with the scratch split off as a memref owned at some contents. -/
theorem PhiA1_eq (c : Dev nD) :
    (Pipeline.ΦA spec1 c : sProp 𝕄)
      = iprop((iprop(∃ d, owns (c : Thread nD τ) scM1 fullShare d) ∗ others1 (F := F) c) ∗ (∃ r, prngReg c r)) := by
  unfold Pipeline.ΦA
  rw [Pipeline.scopedRest_split_of_list spec1 c [cc1_scratch0] (by decide) (by decide)]
  simp only [scM1, owns_whole]; rfl

/-- The region invariant before position `n`: at the start the class's (the scratch at anything); afterwards the
    scratch at the running minimum the point before left, the other scoped buffers at anything, the generator
    register at some state. -/
def PhiS1 (c : Dev nD) : (n : ℕ) → n ≤ cfg1.N → sProp 𝕄
  | 0, _ => Pipeline.ΦA spec1 c
  | n + 1, hn => iprop((owns (c : Thread nD τ) scM1 fullShare (accAt1 V c n hn) ∗ others1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (accAt1 V c n hn) ∗ others1 (F := F) c) ∗ (∃ r, prngReg c r)) := rfl
theorem PhiS1_pos (c : Dev nD) (n : ℕ) (h : n ≤ cfg1.N) (hz : n ≠ 0) :
    PhiS1 V c n h = iprop((owns (c : Thread nD τ) scM1 fullShare (accAt1 V c (n - 1) (by omega)) ∗ others1 (F := F) c) ∗ (∃ r, prngReg c r)) := by
  cases n with
  | zero => exact absurd rfl hz
  | succ n => rfl

/-- The proof data: the arrays as the call finds them; after the body each input's buffer at its block and the output's
    at the running minimum (written back only at the last column tile, where it is the row tile's minimum over all
    column tiles); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation at a generic point of call 1 -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the column tile says which of the three situations
    the point is in; the invariant hands over the scratch (at anything at the very first point, at the previous point's
    running minimum later) and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [cc1_eq_cc0]
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 256 := lt_of_lt_of_eq t.isLt (show cfg1.N = 256 from N_1)
  by_cases h0 : t.val % 16 = 0
  · have h1 : ¬ t.val % 16 = 15 := by omega
    rw [Dat.leavesExact_idle (dat1 V c) 2 t (idleAt1_2 t h1) (noFlush1_2 t h1)]
    rw [accAt1_first V c t h0]
    by_cases hz : t.val = 0
    · rw [PhiS1_castSucc V c t, PhiS1_zero V c _ _ hz, PhiA1_eq]
      iintro ⟨⟨⟨⟨%ds, HS⟩, Hr⟩, Hg⟩, Ho, ⟨%d0, H0⟩, ⟨%d1, H1⟩, ⟨%d2, H2⟩⟩
      iapply (run_first c (grid1.coords t) _ (hs1_0 t) _ (hs1_1 t) _ (hs1_2 t) _ (Memref.isWhole_whole _) ((hcondFirst1 t).mpr h0) (fun h => h1 ((hcondLast1 t).mp h)) (iblk1 V c 0 t) (iblk1 V c 1 t) _ ds Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS, Hr⟩, Hg⟩, Ho, ⟨%d0, H0⟩, ⟨%d1, H1⟩, ⟨%d2, H2⟩⟩
      iapply (run_first c (grid1.coords t) _ (hs1_0 t) _ (hs1_1 t) _ (hs1_2 t) _ (Memref.isWhole_whole _) ((hcondFirst1 t).mpr h0) (fun h => h1 ((hcondLast1 t).mp h)) (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
  · have hz : t.val ≠ 0 := fun e => h0 (by rw [e])
    rw [accAt1_next V c t h0, PhiS1_castSucc V c t, PhiS1_pos V c _ _ hz]
    by_cases h1 : t.val % 16 = 15
    · rw [show (dat1 V c).leavesExact 2 t = owns (c : Thread nD τ) (ms1_2 t) fullShare ((dat1 V c).after 2 t) from by
        unfold Dat.leavesExact; rw [liveAt1_2 t h1], after1_2, accAt1_next V c t h0]
      iintro ⟨⟨⟨HS, Hr⟩, Hg⟩, Ho, ⟨%d0, H0⟩, ⟨%d1, H1⟩, ⟨%d2, H2⟩⟩
      iapply (run_last c (grid1.coords t) _ (hs1_0 t) _ (hs1_1 t) _ (hs1_2 t) _ (Memref.isWhole_whole _) (fun h => h0 ((hcondFirst1 t).mp h)) ((hcondLast1 t).mpr h1) (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · rw [Dat.leavesExact_idle (dat1 V c) 2 t (idleAt1_2 t h1) (noFlush1_2 t h1)]
      iintro ⟨⟨⟨HS, Hr⟩, Hg⟩, Ho, ⟨%d0, H0⟩, ⟨%d1, H1⟩, ⟨%d2, H2⟩⟩
      iapply (run_mid c (grid1.coords t) _ (hs1_0 t) _ (hs1_1 t) _ (hs1_2 t) _ (Memref.isWhole_whole _) (fun h => h0 ((hcondFirst1 t).mp h)) (fun h => h1 ((hcondLast1 t).mp h)) (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point; after the last point the invariant gives
    it back, the running minimum's value forgotten. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega), PhiA1_eq]
  iintro ⟨⟨HS, Hr⟩, Hg⟩
  isplitl [HS Hr]
  · isplitl [HS]; · iexists _; iexact HS
    iexact Hr
  iexact Hg

end Cert.Kernel.Body

end
-- ==== Proof.Kernel.Run.lean ====
import proofs.«112426_j38843684225041_1_alg».proof.Proof.Kernel.Data
import proofs.«112426_j38843684225041_1_alg».proof.Proof.Gen.Kernel.Regions
import Idealize.ShloMosaic.Lib.Pipeline.RegionsLoop
import Idealize.ShloMosaic.Lib.Pipeline.FrameSuffix

set_option maxRecDepth 16384

noncomputable section

/-
  The program's run. @main is: the first call (nearest neighbours of the first cloud in the second), the second call
  (the clouds swapped), then thirteen host operations (square roots, two means, their sum halved). The unscoped
  buffers' contents are followed from the launch memory through the three items; each call is entered with them at
  the contents before it and leaves them changed only at its output array, which ends at what its write-backs leave.
  Every weakly fair execution terminates, and the final memory holds every unscoped buffer at the last contents.
-/
namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The unscoped buffers' contents at each boundary -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After the first call: its arrays at what its pipeline leaves, every other buffer as before. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the second call. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)
/-- After the host operations. -/
abbrev W3 : Dev nD → Valuation τ sig (Elt F) := fun c => StableHlo.after hostOps2 (W2 m c)

/-! ### The argument arrays end as launched: no host operation writes one and both calls only read them -/

theorem W1_main_arg0 (c : Dev nD) : W1 m c (Proc.devRef .tc main_arg0) = m ((c : Thread nD τ).loc main_arg0) :=
  (W1_arr m c 0).trans (((dat0 (V0 m) c).arrAt_in 0 rfl _).trans (A_eq0 (V0 m) c 0))
theorem W1_main_arg1 (c : Dev nD) : W1 m c (Proc.devRef .tc main_arg1) = m ((c : Thread nD τ).loc main_arg1) :=
  (W1_arr m c 1).trans (((dat0 (V0 m) c).arrAt_in 1 rfl _).trans (A_eq0 (V0 m) c 1))
theorem W2_main_arg0 (c : Dev nD) : W2 m c (Proc.devRef .tc main_arg0) = m ((c : Thread nD τ).loc main_arg0) :=
  (W2_arr m c 1).trans (((dat1 (V1 m) c).arrAt_in 1 rfl _).trans ((A_eq1 (V1 m) c 1).trans (W1_main_arg0 m c)))
theorem W2_main_arg1 (c : Dev nD) : W2 m c (Proc.devRef .tc main_arg1) = m ((c : Thread nD τ).loc main_arg1) :=
  (W2_arr m c 0).trans (((dat1 (V1 m) c).arrAt_in 0 rfl _).trans ((A_eq1 (V1 m) c 0).trans (W1_main_arg1 m c)))
theorem W3_main_arg0 (c : Dev nD) : W3 m c (Proc.devRef .tc main_arg0) = m ((c : Thread nD τ).loc main_arg0) :=
  (StableHlo.after_of_writes_sub hostOps2 _ hostOps2_writes (by decide : main_arg0 ∉ hostOps2_W)).trans (W2_main_arg0 m c)
theorem W3_main_arg1 (c : Dev nD) : W3 m c (Proc.devRef .tc main_arg1) = m ((c : Thread nD τ).loc main_arg1) :=
  (StableHlo.after_of_writes_sub hostOps2 _ hostOps2_writes (by decide : main_arg1 ∉ hostOps2_W)).trans (W2_main_arg1 m c)

/-! ## The proof data family and the thread state -/

/-- Both pipelines' proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The items as segments -/

set_option backward.isDefEq.respectTransparency.types false in
/-- Call 0 as a segment: entered with every unscoped buffer at the contents before it, left with them at the contents
    after it. Its arrays are split out of the unscoped buffers on entry and put back on exit; the generator register goes
    into the class invariant and comes back; nothing is owed; the body has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (pdats m 0 c).Φ (Fin.last _) ⊢ Pipeline.ΦA spec0 c := hout0 (V0 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at the contents before it, left with them at the contents
    after it. Its arrays are split out of the unscoped buffers on entry and put back on exit; the generator register goes
    into the class invariant and comes back; nothing is owed; the body has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (pdats m 1 c).Φ (Fin.last _) ⊢ Pipeline.ΦA spec1 c := hout1 (V1 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The host operations as a segment, from the contents after the second call. -/
abbrev tailSeg : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

abbrev segs : List (Pipeline.Seg (pcfgs (F := F)) adm (pdats m) () defs₀ 𝒱₀ L lv) :=
  [ .region (reg0 m), .region (reg1 m), .host (tailSeg m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    the final memory holds every unscoped buffer at the contents after the host operations. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show (iprop(StableHlo.held (c : Thread nD τ) (Pipeline.ucRefs τ sig) (W3 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m c),
     (h c _ (mem_uc main_arg1 (by decide))).trans (W3_main_arg1 m c)⟩) (run_main m ρ)

end Cert.Kernel.Body

end
-- ==== Proof.KernelIdeal.Body.lean ====
import proofs.«112426_j38843684225041_1_alg».proof.Proof.Gen.KernelIdeal.Launch
import proofs.«112426_j38843684225041_1_alg».proof.Proof.Gen.KernelIdeal.Skeleton
import proofs.«112426_j38843684225041_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-
  The kernel body run on whole staging buffers, in each of the three situations the 16 × 16 grid meets:
  the first column tile (the running minimum is reset to +∞ and then lowered by this tile's distances),
  a middle one (the running minimum the previous point left is lowered), and the last one (lowered, and
  copied into the output block). What the scratch holds afterwards is the body's one arithmetic term
  applied to the two input blocks and the previous running minimum.
-/
namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, in closed form over the grid

The grid is 16 × 16, point t = 16·(row tile) + (column tile). The body resets its running minimum when the column
tile is 0 and writes the minimum out when the column tile is 15. Both calls run the same body. -/

/-- The column tile is the first one. -/
abbrev condFirst (i : grid0.Coords) : Prop := (Scalar.cmpi .ne (Scalar.extui (Scalar.cmpi .eq (BitVec.ofNat 32 (i 1).val) 0#32)) 0#32) = 1#1
/-- The column tile is the last one. -/
abbrev condLast (i : grid0.Coords) : Prop := k0_cond2 i = 1#1

theorem hcondFirst : ∀ t : Fin cfg0.N, condFirst (grid0.coords t) ↔ t.val % 16 = 0 :=
  (by decide +kernel : ∀ t : Fin grid0.N, condFirst (grid0.coords t) ↔ t.val % 16 = 0)
theorem hcondLast : ∀ t : Fin cfg0.N, condLast (grid0.coords t) ↔ t.val % 16 = 15 :=
  (by decide +kernel : ∀ t : Fin grid0.N, condLast (grid0.coords t) ↔ t.val % 16 = 15)

set_option maxRecDepth 65536 in
/-- The second call's body is the first call's: the same text over the same grid. -/
theorem cc1_eq_cc0 : cc1__knn_min_sq_kernel (F := F) = cc0__knn_min_sq_kernel (F := F) := rfl

theorem hz2 : (![0, 0] : Fin 2 → Nat) = fun _ => 0 := by funext a; fin_cases a <;> rfl
theorem hz3 : (![0, 0, 0] : Fin 3 → Nat) = fun _ => 0 := by funext a; fin_cases a <;> rfl

/-! ## The body on any whole staging memrefs, case by case -/

set_option maxHeartbeats 1000000 in
/-- At the first column tile: whatever the scratch held, it ends at the body's term over the reset value; the output block is untouched. -/
theorem run_first (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hc0 : condFirst i) (hc1 : ¬condLast i)
    (x0 x1 : Vec F S4x512x3 .f32) (xo xs : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (k0_pay2 x0 x1 k0_pay1)) -∗ K ⟨⟩))
      ⊢ wp frame (wpE (defs₀ (F := F)) Variants.none c none) E (cc0__knn_min_sq_kernel i arg2 harg2 arg3 harg3 arg4 harg4 arg5 harg5) K := by
  simp only [cc0__knn_min_sq_kernel_eq_skeleton]; unfold cc0__knn_min_sq_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  rw [View.read_writes_eq_canon _ _ _ (fun y => ⟨_, List.mem_cons.mpr (Or.inl rfl), View.mem_set_unit_zero hz2 Facts₀.inb_S4x512_S4x512_0_0 y⟩), View.canon_cons_unit_zero hz2, View.readCov_unit_zero _ hz2]
  simp only [View.readAt_eq_ld, harg2.read_unread, harg3.read_unread, harg5.read_unread, View.ld_unit_zero (S := S4x512x3) hz3, View.ld_unit_zero (S := S4x512) hz2]

set_option maxHeartbeats 1000000 in
/-- At a middle column tile: the scratch ends at the body's term over what it held; the output block is untouched. -/
theorem run_mid (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hc0 : ¬condFirst i) (hc1 : ¬condLast i)
    (x0 x1 : Vec F S4x512x3 .f32) (xo xs : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (k0_pay2 x0 x1 xs)) -∗ K ⟨⟩))
      ⊢ wp frame (wpE (defs₀ (F := F)) Variants.none c none) E (cc0__knn_min_sq_kernel i arg2 harg2 arg3 harg3 arg4 harg4 arg5 harg5) K := by
  simp only [cc0__knn_min_sq_kernel_eq_skeleton]; unfold cc0__knn_min_sq_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  rw [View.read_writes_eq_canon _ _ _ (fun y => ⟨_, List.mem_cons.mpr (Or.inl rfl), View.mem_set_unit_zero hz2 Facts₀.inb_S4x512_S4x512_0_0 y⟩), View.canon_unit_zero hz2]
  simp only [View.readAt_eq_ld, harg2.read_unread, harg3.read_unread, harg5.read_unread, View.ld_unit_zero (S := S4x512x3) hz3, View.ld_unit_zero (S := S4x512) hz2]

set_option maxHeartbeats 1000000 in
/-- At the last column tile: the scratch ends at the body's term over what it held, and the output block holds the same. -/
theorem run_last (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hc0 : ¬condFirst i) (hc1 : condLast i)
    (x0 x1 : Vec F S4x512x3 .f32) (xo xs : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare (k0_pay2 x0 x1 xs) ∗ owns (c : Thread nD τ) arg5 fullShare (k0_pay2 x0 x1 xs)) -∗ K ⟨⟩))
      ⊢ wp frame (wpE (defs₀ (F := F)) Variants.none c none) E (cc0__knn_min_sq_kernel i arg2 harg2 arg3 harg3 arg4 harg4 arg5 harg5) K := by
  simp only [cc0__knn_min_sq_kernel_eq_skeleton]; unfold cc0__knn_min_sq_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (fun y => ⟨_, List.mem_cons.mpr (Or.inl rfl), View.mem_set_unit_zero hz2 Facts₀.inb_S4x512_S4x512_0_0 y⟩), View.canon_unit_zero hz2, View.readCov_unit_zero _ hz2]
    simp only [View.readAt_eq_ld, harg2.read_unread, harg3.read_unread, harg5.read_unread, View.ld_unit_zero (S := S4x512x3) hz3, View.ld_unit_zero (S := S4x512) hz2]
  iexists _; isplitr
  swap; · iexact HS
  ipureintro
  sl_unfold_run_names
  rw [View.read_writes_eq_canon _ _ _ (fun y => ⟨_, List.mem_cons.mpr (Or.inl rfl), View.mem_set_unit_zero hz2 Facts₀.inb_S4x512_S4x512_0_0 y⟩), View.canon_unit_zero hz2]
  simp only [View.readAt_eq_ld, harg2.read_unread, harg3.read_unread, harg5.read_unread, View.ld_unit_zero (S := S4x512x3) hz3, View.ld_unit_zero (S := S4x512) hz2]

end Cert.KernelIdeal.Body

end
-- ==== Proof.KernelIdeal.Data.lean ====
import proofs.«112426_j38843684225041_1_alg».proof.Proof.KernelIdeal.Body

set_option maxRecDepth 16384

noncomputable section

/-
  The proof data of the two calls' pipelines. Each call walks a 16 × 16 grid of (row tile, column tile) points; at
  every point the body lowers a running minimum kept in a scratch buffer by the distances between the point's row
  block of one cloud and its column block of the other; the output block is written at the last column tile of each
  row tile. The data say what every staging buffer and the scratch hold after each point.
-/
namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Call 0: the proof data of its pipeline, at the entry contents `V` -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, and the call's scratch. -/
abbrev ms0_0 (t : Fin cfg0.N) : Memref sig .tc .vmem S4x512x3 .f32 := win0_0.stage (cfg0.slots t 0)
abbrev hs0_0 (t : Fin cfg0.N) : (ms0_0 t).IsWhole := Facts₀.hstage0_0 ((cfg0.slots t 0).cast Facts₀.nbuf0_0)
abbrev ms0_1 (t : Fin cfg0.N) : Memref sig .tc .vmem S4x512x3 .f32 := win0_1.stage (cfg0.slots t 1)
abbrev hs0_1 (t : Fin cfg0.N) : (ms0_1 t).IsWhole := Facts₀.hstage0_1 ((cfg0.slots t 1).cast Facts₀.nbuf0_1)
abbrev ms0_2 (t : Fin cfg0.N) : Memref sig .tc .vmem S4x512 .f32 := win0_2.stage (cfg0.slots t 2)
abbrev hs0_2 (t : Fin cfg0.N) : (ms0_2 t).IsWhole := Facts₀.hstage0_2 ((cfg0.slots t 2).cast Facts₀.nbuf0_2)
abbrev scM0 : Memref sig .tc .vmem S4x512 .f32 := Memref.whole cc0_scratch0

theorem hcondFirst0 : ∀ t : Fin cfg0.N, condFirst (grid0.coords t) ↔ t.val % 16 = 0 :=
  (by decide +kernel : ∀ t : Fin grid0.N, condFirst (grid0.coords t) ↔ t.val % 16 = 0)
theorem hcondLast0 : ∀ t : Fin cfg0.N, condLast (grid0.coords t) ↔ t.val % 16 = 15 :=
  (by decide +kernel : ∀ t : Fin grid0.N, condLast (grid0.coords t) ↔ t.val % 16 = 15)

/-- The inputs are never idle; the output is idle exactly off the last column tile, where it is not written back either. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem idleAt0_2 : ∀ t : Fin cfg0.N, ¬ t.val % 16 = 15 → cfg0.idle 2 (grid0.coords t) = true :=
  (by decide +kernel : ∀ t : Fin grid0.N, ¬ t.val % 16 = 15 → cfg0.idle 2 (grid0.coords t) = true)
theorem liveAt0_2 : ∀ t : Fin cfg0.N, t.val % 16 = 15 → cfg0.idle 2 (grid0.coords t) = false :=
  (by decide +kernel : ∀ t : Fin grid0.N, t.val % 16 = 15 → cfg0.idle 2 (grid0.coords t) = false)
theorem noFlush0_2 (t : Fin cfg0.N) (h : ¬ t.val % 16 = 15) : (cfg0.win 2).flush t = false :=
  Bool.eq_false_iff.mpr fun hf => h ((flush0_2 t).mp hf)

/-- THE RUNNING MINIMUM. What the scratch holds after the body at point `n`: the body's term of the point's two input
    blocks and of the reset value at a first column tile, of what the point before left otherwise. -/
def accAt0 (c : Dev nD) : (n : ℕ) → n < cfg0.N → Vec F S4x512 .f32
  | 0, hn => k0_pay2 (iblk0 V c 0 ⟨0, hn⟩) (iblk0 V c 1 ⟨0, hn⟩) k0_pay1
  | n + 1, hn => k0_pay2 (iblk0 V c 0 ⟨n + 1, hn⟩) (iblk0 V c 1 ⟨n + 1, hn⟩)
      (if (n + 1) % 16 = 0 then k0_pay1 else accAt0 c n (Nat.lt_of_succ_lt hn))

theorem accAt0_first (c : Dev nD) (t : Fin cfg0.N) (h : t.val % 16 = 0) :
    accAt0 V c t.val t.isLt = k0_pay2 (iblk0 V c 0 t) (iblk0 V c 1 t) k0_pay1 := by
  obtain ⟨n, hn⟩ := t
  cases n with
  | zero => rfl
  | succ n => exact congrArg (k0_pay2 (iblk0 V c 0 ⟨n + 1, hn⟩) (iblk0 V c 1 ⟨n + 1, hn⟩)) (if_pos h)

theorem accAt0_next (c : Dev nD) (t : Fin cfg0.N) (h : ¬ t.val % 16 = 0) :
    accAt0 V c t.val t.isLt = k0_pay2 (iblk0 V c 0 t) (iblk0 V c 1 t) (accAt0 V c (t.val - 1) (Nat.lt_of_le_of_lt (Nat.sub_le _ _) t.isLt)) := by
  obtain ⟨n, hn⟩ := t
  cases n with
  | zero => exact absurd (Nat.zero_mod _) h
  | succ n => exact congrArg (k0_pay2 (iblk0 V c 0 ⟨n + 1, hn⟩) (iblk0 V c 1 ⟨n + 1, hn⟩)) (if_neg h)

/-- The scoped buffers that are neither this call's staging buffers nor its scratch (the other call's), at anything. -/
abbrev others0 (c : Dev nD) : sProp 𝕄 :=
  Pipeline.scopedRestBut (Ix := Unit) (Name := ℕ) (U := UR sig nD τ) (Lvl := ℕ) (Val := Elt F) spec0 c [cc0_scratch0]

/-- The class invariant with the scratch split off as a memref owned at some contents. -/
theorem PhiA0_eq (c : Dev nD) :
    (Pipeline.ΦA spec0 c : sProp 𝕄)
      = iprop((iprop(∃ d, owns (c : Thread nD τ) scM0 fullShare d) ∗ others0 (F := F) c) ∗ (∃ r, prngReg c r)) := by
  unfold Pipeline.ΦA
  rw [Pipeline.scopedRest_split_of_list spec0 c [cc0_scratch0] (by decide) (by decide)]
  simp only [scM0, owns_whole]; rfl

/-- The region invariant before position `n`: at the start the class's (the scratch at anything); afterwards the
    scratch at the running minimum the point before left, the other scoped buffers at anything, the generator
    register at some state. -/
def PhiS0 (c : Dev nD) : (n : ℕ) → n ≤ cfg0.N → sProp 𝕄
  | 0, _ => Pipeline.ΦA spec0 c
  | n + 1, hn => iprop((owns (c : Thread nD τ) scM0 fullShare (accAt0 V c n hn) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (accAt0 V c n hn) ∗ others0 (F := F) c) ∗ (∃ r, prngReg c r)) := rfl
theorem PhiS0_pos (c : Dev nD) (n : ℕ) (h : n ≤ cfg0.N) (hz : n ≠ 0) :
    PhiS0 V c n h = iprop((owns (c : Thread nD τ) scM0 fullShare (accAt0 V c (n - 1) (by omega)) ∗ others0 (F := F) c) ∗ (∃ r, prngReg c r)) := by
  cases n with
  | zero => exact absurd rfl hz
  | succ n => rfl

/-- The proof data: the arrays as the call finds them; after the body each input's buffer at its block and the output's
    at the running minimum (written back only at the last column tile, where it is the row tile's minimum over all
    column tiles); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point of call 0 -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the column tile says which of the three situations
    the point is in; the invariant hands over the scratch (at anything at the very first point, at the previous point's
    running minimum later) and takes it back at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 256 := lt_of_lt_of_eq t.isLt (show cfg0.N = 256 from N_0)
  by_cases h0 : t.val % 16 = 0
  · have h1 : ¬ t.val % 16 = 15 := by omega
    rw [Dat.leavesExact_idle (dat0 V c) 2 t (idleAt0_2 t h1) (noFlush0_2 t h1)]
    rw [accAt0_first V c t h0]
    by_cases hz : t.val = 0
    · rw [PhiS0_castSucc V c t, PhiS0_zero V c _ _ hz, PhiA0_eq]
      iintro ⟨⟨⟨⟨%ds, HS⟩, Hr⟩, Hg⟩, Ho, ⟨%d0, H0⟩, ⟨%d1, H1⟩, ⟨%d2, H2⟩⟩
      iapply (run_first c (grid0.coords t) _ (hs0_0 t) _ (hs0_1 t) _ (hs0_2 t) _ (Memref.isWhole_whole _) ((hcondFirst0 t).mpr h0) (fun h => h1 ((hcondLast0 t).mp h)) (iblk0 V c 0 t) (iblk0 V c 1 t) _ ds Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, Hr⟩, Hg⟩, Ho, ⟨%d0, H0⟩, ⟨%d1, H1⟩, ⟨%d2, H2⟩⟩
      iapply (run_first c (grid0.coords t) _ (hs0_0 t) _ (hs0_1 t) _ (hs0_2 t) _ (Memref.isWhole_whole _) ((hcondFirst0 t).mpr h0) (fun h => h1 ((hcondLast0 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
  · have hz : t.val ≠ 0 := fun e => h0 (by rw [e])
    rw [accAt0_next V c t h0, PhiS0_castSucc V c t, PhiS0_pos V c _ _ hz]
    by_cases h1 : t.val % 16 = 15
    · rw [show (dat0 V c).leavesExact 2 t = owns (c : Thread nD τ) (ms0_2 t) fullShare ((dat0 V c).after 2 t) from by
        unfold Dat.leavesExact; rw [liveAt0_2 t h1], after0_2, accAt0_next V c t h0]
      iintro ⟨⟨⟨HS, Hr⟩, Hg⟩, Ho, ⟨%d0, H0⟩, ⟨%d1, H1⟩, ⟨%d2, H2⟩⟩
      iapply (run_last c (grid0.coords t) _ (hs0_0 t) _ (hs0_1 t) _ (hs0_2 t) _ (Memref.isWhole_whole _) (fun h => h0 ((hcondFirst0 t).mp h)) ((hcondLast0 t).mpr h1) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · rw [Dat.leavesExact_idle (dat0 V c) 2 t (idleAt0_2 t h1) (noFlush0_2 t h1)]
      iintro ⟨⟨⟨HS, Hr⟩, Hg⟩, Ho, ⟨%d0, H0⟩, ⟨%d1, H1⟩, ⟨%d2, H2⟩⟩
      iapply (run_mid c (grid0.coords t) _ (hs0_0 t) _ (hs0_1 t) _ (hs0_2 t) _ (Memref.isWhole_whole _) (fun h => h0 ((hcondFirst0 t).mp h)) (fun h => h1 ((hcondLast0 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point; after the last point the invariant gives
    it back, the running minimum's value forgotten. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 256 := N_0; omega), PhiA0_eq]
  iintro ⟨⟨HS, Hr⟩, Hg⟩
  isplitl [HS Hr]
  · isplitl [HS]; · iexists _; iexact HS
    iexact Hr
  iexact Hg

/-! # Call 1: the proof data of its pipeline, at the entry contents `V` -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, and the call's scratch. -/
abbrev ms1_0 (t : Fin cfg1.N) : Memref sig .tc .vmem S4x512x3 .f32 := win1_0.stage (cfg1.slots t 0)
abbrev hs1_0 (t : Fin cfg1.N) : (ms1_0 t).IsWhole := Facts₀.hstage1_0 ((cfg1.slots t 0).cast Facts₀.nbuf1_0)
abbrev ms1_1 (t : Fin cfg1.N) : Memref sig .tc .vmem S4x512x3 .f32 := win1_1.stage (cfg1.slots t 1)
abbrev hs1_1 (t : Fin cfg1.N) : (ms1_1 t).IsWhole := Facts₀.hstage1_1 ((cfg1.slots t 1).cast Facts₀.nbuf1_1)
abbrev ms1_2 (t : Fin cfg1.N) : Memref sig .tc .vmem S4x512 .f32 := win1_2.stage (cfg1.slots t 2)
abbrev hs1_2 (t : Fin cfg1.N) : (ms1_2 t).IsWhole := Facts₀.hstage1_2 ((cfg1.slots t 2).cast Facts₀.nbuf1_2)
abbrev scM1 : Memref sig .tc .vmem S4x512 .f32 := Memref.whole cc1_scratch0

theorem hcondFirst1 : ∀ t : Fin cfg1.N, condFirst (grid1.coords t) ↔ t.val % 16 = 0 :=
  (by decide +kernel : ∀ t : Fin grid1.N, condFirst (grid1.coords t) ↔ t.val % 16 = 0)
theorem hcondLast1 : ∀ t : Fin cfg1.N, condLast (grid1.coords t) ↔ t.val % 16 = 15 :=
  (by decide +kernel : ∀ t : Fin grid1.N, condLast (grid1.coords t) ↔ t.val % 16 = 15)

/-- The inputs are never idle; the output is idle exactly off the last column tile, where it is not written back either. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem idleAt1_2 : ∀ t : Fin cfg1.N, ¬ t.val % 16 = 15 → cfg1.idle 2 (grid1.coords t) = true :=
  (by decide +kernel : ∀ t : Fin grid1.N, ¬ t.val % 16 = 15 → cfg1.idle 2 (grid1.coords t) = true)
theorem liveAt1_2 : ∀ t : Fin cfg1.N, t.val % 16 = 15 → cfg1.idle 2 (grid1.coords t) = false :=
  (by decide +kernel : ∀ t : Fin grid1.N, t.val % 16 = 15 → cfg1.idle 2 (grid1.coords t) = false)
theorem noFlush1_2 (t : Fin cfg1.N) (h : ¬ t.val % 16 = 15) : (cfg1.win 2).flush t = false :=
  Bool.eq_false_iff.mpr fun hf => h ((flush1_2 t).mp hf)

/-- THE RUNNING MINIMUM. What the scratch holds after the body at point `n`: the body's term of the point's two input
    blocks and of the reset value at a first column tile, of what the point before left otherwise. -/
def accAt1 (c : Dev nD) : (n : ℕ) → n < cfg1.N → Vec F S4x512 .f32
  | 0, hn => k0_pay2 (iblk1 V c 0 ⟨0, hn⟩) (iblk1 V c 1 ⟨0, hn⟩) k0_pay1
  | n + 1, hn => k0_pay2 (iblk1 V c 0 ⟨n + 1, hn⟩) (iblk1 V c 1 ⟨n + 1, hn⟩)
      (if (n + 1) % 16 = 0 then k0_pay1 else accAt1 c n (Nat.lt_of_succ_lt hn))

theorem accAt1_first (c : Dev nD) (t : Fin cfg1.N) (h : t.val % 16 = 0) :
    accAt1 V c t.val t.isLt = k0_pay2 (iblk1 V c 0 t) (iblk1 V c 1 t) k0_pay1 := by
  obtain ⟨n, hn⟩ := t
  cases n with
  | zero => rfl
  | succ n => exact congrArg (k0_pay2 (iblk1 V c 0 ⟨n + 1, hn⟩) (iblk1 V c 1 ⟨n + 1, hn⟩)) (if_pos h)

theorem accAt1_next (c : Dev nD) (t : Fin cfg1.N) (h : ¬ t.val % 16 = 0) :
    accAt1 V c t.val t.isLt = k0_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h
  | succ n => exact congrArg (k0_pay2 (iblk1 V c 0 ⟨n + 1, hn⟩) (iblk1 V c 1 ⟨n + 1, hn⟩)) (if_neg h)

/-- The scoped buffers that are neither this call's staging buffers nor its scratch (the other call's), at anything. -/
abbrev others1 (c : Dev nD) : sProp 𝕄 :=
  Pipeline.scopedRestBut (Ix := Unit) (Name := ℕ) (U := UR sig nD τ) (Lvl := ℕ) (Val := Elt F) spec1 c [cc1_scratch0]

/-- The class invariant with the scratch split off as a memref owned at some contents. -/
theorem PhiA1_eq (c : Dev nD) :
    (Pipeline.ΦA spec1 c : sProp 𝕄)
      = iprop((iprop(∃ d, owns (c : Thread nD τ) scM1 fullShare d) ∗ others1 (F := F) c) ∗ (∃ r, prngReg c r)) := by
  unfold Pipeline.ΦA
  rw [Pipeline.scopedRest_split_of_list spec1 c [cc1_scratch0] (by decide) (by decide)]
  simp only [scM1, owns_whole]; rfl

/-- The region invariant before position `n`: at the start the class's (the scratch at anything); afterwards the
    scratch at the running minimum the point before left, the other scoped buffers at anything, the generator
    register at some state. -/
def PhiS1 (c : Dev nD) : (n : ℕ) → n ≤ cfg1.N → sProp 𝕄
  | 0, _ => Pipeline.ΦA spec1 c
  | n + 1, hn => iprop((owns (c : Thread nD τ) scM1 fullShare (accAt1 V c n hn) ∗ others1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (accAt1 V c n hn) ∗ others1 (F := F) c) ∗ (∃ r, prngReg c r)) := rfl
theorem PhiS1_pos (c : Dev nD) (n : ℕ) (h : n ≤ cfg1.N) (hz : n ≠ 0) :
    PhiS1 V c n h = iprop((owns (c : Thread nD τ) scM1 fullShare (accAt1 V c (n - 1) (by omega)) ∗ others1 (F := F) c) ∗ (∃ r, prngReg c r)) := by
  cases n with
  | zero => exact absurd rfl hz
  | succ n => rfl

/-- The proof data: the arrays as the call finds them; after the body each input's buffer at its block and the output's
    at the running minimum (written back only at the last column tile, where it is the row tile's minimum over all
    column tiles); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation at a generic point of call 1 -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the column tile says which of the three situations
    the point is in; the invariant hands over the scratch (at anything at the very first point, at the previous point's
    running minimum later) and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [cc1_eq_cc0]
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 256 := lt_of_lt_of_eq t.isLt (show cfg1.N = 256 from N_1)
  by_cases h0 : t.val % 16 = 0
  · have h1 : ¬ t.val % 16 = 15 := by omega
    rw [Dat.leavesExact_idle (dat1 V c) 2 t (idleAt1_2 t h1) (noFlush1_2 t h1)]
    rw [accAt1_first V c t h0]
    by_cases hz : t.val = 0
    · rw [PhiS1_castSucc V c t, PhiS1_zero V c _ _ hz, PhiA1_eq]
      iintro ⟨⟨⟨⟨%ds, HS⟩, Hr⟩, Hg⟩, Ho, ⟨%d0, H0⟩, ⟨%d1, H1⟩, ⟨%d2, H2⟩⟩
      iapply (run_first c (grid1.coords t) _ (hs1_0 t) _ (hs1_1 t) _ (hs1_2 t) _ (Memref.isWhole_whole _) ((hcondFirst1 t).mpr h0) (fun h => h1 ((hcondLast1 t).mp h)) (iblk1 V c 0 t) (iblk1 V c 1 t) _ ds Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS, Hr⟩, Hg⟩, Ho, ⟨%d0, H0⟩, ⟨%d1, H1⟩, ⟨%d2, H2⟩⟩
      iapply (run_first c (grid1.coords t) _ (hs1_0 t) _ (hs1_1 t) _ (hs1_2 t) _ (Memref.isWhole_whole _) ((hcondFirst1 t).mpr h0) (fun h => h1 ((hcondLast1 t).mp h)) (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
  · have hz : t.val ≠ 0 := fun e => h0 (by rw [e])
    rw [accAt1_next V c t h0, PhiS1_castSucc V c t, PhiS1_pos V c _ _ hz]
    by_cases h1 : t.val % 16 = 15
    · rw [show (dat1 V c).leavesExact 2 t = owns (c : Thread nD τ) (ms1_2 t) fullShare ((dat1 V c).after 2 t) from by
        unfold Dat.leavesExact; rw [liveAt1_2 t h1], after1_2, accAt1_next V c t h0]
      iintro ⟨⟨⟨HS, Hr⟩, Hg⟩, Ho, ⟨%d0, H0⟩, ⟨%d1, H1⟩, ⟨%d2, H2⟩⟩
      iapply (run_last c (grid1.coords t) _ (hs1_0 t) _ (hs1_1 t) _ (hs1_2 t) _ (Memref.isWhole_whole _) (fun h => h0 ((hcondFirst1 t).mp h)) ((hcondLast1 t).mpr h1) (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · rw [Dat.leavesExact_idle (dat1 V c) 2 t (idleAt1_2 t h1) (noFlush1_2 t h1)]
      iintro ⟨⟨⟨HS, Hr⟩, Hg⟩, Ho, ⟨%d0, H0⟩, ⟨%d1, H1⟩, ⟨%d2, H2⟩⟩
      iapply (run_mid c (grid1.coords t) _ (hs1_0 t) _ (hs1_1 t) _ (hs1_2 t) _ (Memref.isWhole_whole _) (fun h => h0 ((hcondFirst1 t).mp h)) (fun h => h1 ((hcondLast1 t).mp h)) (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point; after the last point the invariant gives
    it back, the running minimum's value forgotten. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega), PhiA1_eq]
  iintro ⟨⟨HS, Hr⟩, Hg⟩
  isplitl [HS Hr]
  · isplitl [HS]; · iexists _; iexact HS
    iexact Hr
  iexact Hg

end Cert.KernelIdeal.Body

end
-- ==== Proof.KernelIdeal.Run.lean ====
import proofs.«112426_j38843684225041_1_alg».proof.Proof.KernelIdeal.Data
import proofs.«112426_j38843684225041_1_alg».proof.Proof.Gen.KernelIdeal.Regions
import Idealize.ShloMosaic.Lib.Pipeline.RegionsLoop
import Idealize.ShloMosaic.Lib.Pipeline.FrameSuffix

set_option maxRecDepth 16384

noncomputable section

/-
  The program's run. @main is: the first call (nearest neighbours of the first cloud in the second), the second call
  (the clouds swapped), then thirteen host operations (square roots, two means, their sum halved). The unscoped
  buffers' contents are followed from the launch memory through the three items; each call is entered with them at
  the contents before it and leaves them changed only at its output array, which ends at what its write-backs leave.
  Every weakly fair execution terminates, and the final memory holds every unscoped buffer at the last contents.
-/
namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The unscoped buffers' contents at each boundary -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After the first call: its arrays at what its pipeline leaves, every other buffer as before. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the second call. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)
/-- After the host operations. -/
abbrev W3 : Dev nD → Valuation τ sig (Elt F) := fun c => StableHlo.after hostOps2 (W2 m c)

/-! ### The argument arrays end as launched: no host operation writes one and both calls only read them -/

theorem W1_main_arg0 (c : Dev nD) : W1 m c (Proc.devRef .tc main_arg0) = m ((c : Thread nD τ).loc main_arg0) :=
  (W1_arr m c 0).trans (((dat0 (V0 m) c).arrAt_in 0 rfl _).trans (A_eq0 (V0 m) c 0))
theorem W1_main_arg1 (c : Dev nD) : W1 m c (Proc.devRef .tc main_arg1) = m ((c : Thread nD τ).loc main_arg1) :=
  (W1_arr m c 1).trans (((dat0 (V0 m) c).arrAt_in 1 rfl _).trans (A_eq0 (V0 m) c 1))
theorem W2_main_arg0 (c : Dev nD) : W2 m c (Proc.devRef .tc main_arg0) = m ((c : Thread nD τ).loc main_arg0) :=
  (W2_arr m c 1).trans (((dat1 (V1 m) c).arrAt_in 1 rfl _).trans ((A_eq1 (V1 m) c 1).trans (W1_main_arg0 m c)))
theorem W2_main_arg1 (c : Dev nD) : W2 m c (Proc.devRef .tc main_arg1) = m ((c : Thread nD τ).loc main_arg1) :=
  (W2_arr m c 0).trans (((dat1 (V1 m) c).arrAt_in 0 rfl _).trans ((A_eq1 (V1 m) c 0).trans (W1_main_arg1 m c)))
theorem W3_main_arg0 (c : Dev nD) : W3 m c (Proc.devRef .tc main_arg0) = m ((c : Thread nD τ).loc main_arg0) :=
  (StableHlo.after_of_writes_sub hostOps2 _ hostOps2_writes (by decide : main_arg0 ∉ hostOps2_W)).trans (W2_main_arg0 m c)
theorem W3_main_arg1 (c : Dev nD) : W3 m c (Proc.devRef .tc main_arg1) = m ((c : Thread nD τ).loc main_arg1) :=
  (StableHlo.after_of_writes_sub hostOps2 _ hostOps2_writes (by decide : main_arg1 ∉ hostOps2_W)).trans (W2_main_arg1 m c)

/-! ## The proof data family and the thread state -/

/-- Both pipelines' proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The items as segments -/

set_option backward.isDefEq.respectTransparency.types false in
/-- Call 0 as a segment: entered with every unscoped buffer at the contents before it, left with them at the contents
    after it. Its arrays are split out of the unscoped buffers on entry and put back on exit; the generator register goes
    into the class invariant and comes back; nothing is owed; the body has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (pdats m 0 c).Φ (Fin.last _) ⊢ Pipeline.ΦA spec0 c := hout0 (V0 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at the contents before it, left with them at the contents
    after it. Its arrays are split out of the unscoped buffers on entry and put back on exit; the generator register goes
    into the class invariant and comes back; nothing is owed; the body has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (pdats m 1 c).Φ (Fin.last _) ⊢ Pipeline.ΦA spec1 c := hout1 (V1 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The host operations as a segment, from the contents after the second call. -/
abbrev tailSeg : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

abbrev segs : List (Pipeline.Seg (pcfgs (F := F)) adm (pdats m) () defs₀ 𝒱₀ L lv) :=
  [ .region (reg0 m), .region (reg1 m), .host (tailSeg m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    the final memory holds every unscoped buffer at the contents after the host operations. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show (iprop(StableHlo.held (c : Thread nD τ) (Pipeline.ucRefs τ sig) (W3 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m c),
     (h c _ (mem_uc main_arg1 (by decide))).trans (W3_main_arg1 m c)⟩) (run_main m ρ)

end Cert.KernelIdeal.Body

end
-- ==== Proof.LibMinOps.lean ====
/-
  Minima read at an index over the extended reals, and tile-by-tile regrouping.

  For an a × b matrix, the minimum over a row (a vector reduction along the columns from +∞) read at row p, and the
  minimum over a column (the reduction along the rows) read at column q, are the infima of the entries; for an
  a × b × c array the host's reduce with a minimum body from +∞ over the last axis, read at (p, q), and over the middle
  axis, read at (p, j), likewise. An infimum or a sum over T·W consecutive positions is the infimum or the sum over the T
  tiles of each tile's infimum or sum, position W·i + j being entry j of tile i. A vector laid out as one row reads
  entry q at (0, q), and a rank-3 array with a leading unit axis viewed as a matrix reads (0, r, k) at (r, k).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.MinOps

open Idealize.ShloMosaic Idealize.ShloMosaic.ValueIdx

variable {a b c : Nat}

/-- The f32 word of +∞ is the top of the extended reals. -/
theorem ofBits_posInf : Ideal.ofBits .f32 0x7F800000#32 = (⊤ : EReal) := by simp [Ideal.ofBits, Ideal.ieee]

/-- The fold of min from the top over a finite type is the infimum. -/
theorem fold_min_top {ι : Type} [Fintype ι] [DecidableEq ι] (f : ι → EReal) :
    (Finset.univ : Finset ι).fold min ⊤ f = ⨅ k, f k := by
  rw [← Finset.inf_univ_eq_iInf]
  generalize (Finset.univ : Finset ι) = s
  refine Finset.induction_on s ?_ ?_
  · simp
  · intro x s hx ih
    rw [Finset.fold_insert hx, Finset.inf_insert, ih]

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext d; apply Fin.ext
  fin_cases d <;> rfl

/-- Column q with row k put back is (k, q). -/
theorem lift_col (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext d; apply Fin.ext
  fin_cases d <;> rfl

/-- A vector reduction's row minimum from +∞: the infimum of the row's entries. -/
theorem rowMin_vector (src : FVec Ideal ⟨2, ![a, b]⟩ .f32)
    (h : (⟨2, ![a, b]⟩ : Shape).Reduces [1] (⟨1, ![a]⟩ : Shape)) (p : Fin a) :
    multiReduction .minimumf [1] ⟨1, ![a]⟩ src 0x7F800000#32 h (.inl rfl) rfl (ix1 p) = ⨅ j : Fin b, src (ix2 p j) := by
  refine (multiReduction_minimumf_eq_fold src _ h (.inl rfl) rfl (ix1 p)).trans ?_
  refine (h.fold_filter_drop_single _ _ src (ix1 p)).trans ?_
  have hf : (src ∘ h.lift (ix1 p)) = fun k : Fin b => src (ix2 p k) := funext fun k => congrArg src (lift_row h p k)
  refine (congrArg (fun f => Finset.fold min (Ideal.ofBits .f32 0x7F800000#32) f (Finset.univ : Finset (Fin b))) hf).trans ?_
  rw [ofBits_posInf]; exact fold_min_top _

/-- A vector reduction's column minimum from +∞: the infimum of the column's entries. -/
theorem colMin_vector (src : FVec Ideal ⟨2, ![a, b]⟩ .f32)
    (h : (⟨2, ![a, b]⟩ : Shape).Reduces [0] (⟨1, ![b]⟩ : Shape)) (q : Fin b) :
    multiReduction .minimumf [0] ⟨1, ![b]⟩ src 0x7F800000#32 h (.inl rfl) rfl (ix1 q) = ⨅ p : Fin a, src (ix2 p q) := by
  refine (multiReduction_minimumf_eq_fold src _ h (.inl rfl) rfl (ix1 q)).trans ?_
  refine (h.fold_filter_drop_single _ _ src (ix1 q)).trans ?_
  have hf : (src ∘ h.lift (ix1 q)) = fun k : Fin a => src (ix2 k q) := funext fun k => congrArg src (lift_col h q k)
  refine (congrArg (fun f => Finset.fold min (Ideal.ofBits .f32 0x7F800000#32) f (Finset.univ : Finset (Fin a))) hf).trans ?_
  rw [ofBits_posInf]; exact fold_min_top _

/-- (p, q) with last coordinate k put back is (p, q, k). -/
theorem lift_last (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- (p, j) with middle coordinate k put back is (p, k, j). -/
theorem lift_mid (h : (⟨3, ![a, b, c]⟩ : Shape).Reduces [1] (⟨2, ![a, c]⟩ : Shape)) (p : Fin a) (j : Fin c)
    (k : Fin ((⟨3, ![a, b, c]⟩ : Shape).size 1)) : h.lift (ix2 p j) k = ix3 p (⟨k.val, k.isLt⟩ : Fin b) j := by
  funext d; apply Fin.ext
  fin_cases d <;> rfl

/-- The host's minimum over the last axis from +∞, at (p, q): the infimum of the entries (p, q, j). -/
theorem hostMin_last (x : FVec Ideal ⟨3, ![a, b, c]⟩ .f32) (init : (⟨0, ![]⟩ : Shape).Idx → Ideal .f32)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < (⟨0, ![]⟩ : Shape).numel)
    (hinit : init (Shape.Idx.first hu) = (⊤ : EReal)) (p : Fin a) (q : Fin b) :
    Host.reduce FloatOps.minimumf x init h' hu (ix2 p q) = ⨅ j : Fin c, x (ix3 p q j) := by
  rw [Host.reduce_eq_fold_single FloatOps.minimumf x init h' h hu, hinit]
  have hf : (x ∘ h.lift (ix2 p q)) = fun k : Fin c => x (ix3 p q k) := funext fun k => congrArg x (lift_last h p q k)
  refine (congrArg (fun f => Finset.fold min (⊤ : EReal) f (Finset.univ : Finset (Fin c))) hf).trans ?_
  exact fold_min_top _

/-- The host's minimum over the middle axis from +∞, at (p, j): the infimum of the entries (p, q, j). -/
theorem hostMin_mid (x : FVec Ideal ⟨3, ![a, b, c]⟩ .f32) (init : (⟨0, ![]⟩ : Shape).Idx → Ideal .f32)
    (h' : (⟨3, ![a, b, c]⟩ : Shape).ReducesTo [1] (⟨2, ![a, c]⟩ : Shape))
    (h : (⟨3, ![a, b, c]⟩ : Shape).Reduces [1] (⟨2, ![a, c]⟩ : Shape)) (hu : 0 < (⟨0, ![]⟩ : Shape).numel)
    (hinit : init (Shape.Idx.first hu) = (⊤ : EReal)) (p : Fin a) (j : Fin c) :
    Host.reduce FloatOps.minimumf x init h' hu (ix2 p j) = ⨅ q : Fin b, x (ix3 p q j) := by
  rw [Host.reduce_eq_fold_single FloatOps.minimumf x init h' h hu, hinit]
  have hf : (x ∘ h.lift (ix2 p j)) = fun k : Fin b => x (ix3 p k j) := funext fun k => congrArg x (lift_mid h p j k)
  refine (congrArg (fun f => Finset.fold min (⊤ : EReal) f (Finset.univ : Finset (Fin b))) hf).trans ?_
  exact fold_min_top _

/-- Entry j of tile i of N = T·W consecutive positions: position W·i + j. -/
def tile {T W N : ℕ} (h : T * W = N) (i : Fin T) (j : Fin W) : Fin N := Fin.cast h (finProdFinEquiv (i, j))

theorem tile_val {T W N : ℕ} (h : T * W = N) (i : Fin T) (j : Fin W) : (tile h i j).val = W * i.val + j.val := by
  simp [tile, finProdFinEquiv, Nat.add_comm]

/-- An infimum over N = T·W positions, tile by tile. -/
theorem iInf_tile {T W N : ℕ} (h : T * W = N) (f : Fin N → EReal) :
    ⨅ k, f k = ⨅ i : Fin T, ⨅ j : Fin W, f (tile h i j) := by
  subst h
  rw [← Equiv.iInf_comp (g := f) finProdFinEquiv, iInf_prod]
  rfl

/-- A sum over N = T·W positions, tile by tile. -/
theorem sum_tile {M : Type} [AddCommMonoid M] {T W N : ℕ} (h : T * W = N) (f : Fin N → M) :
    ∑ k, f k = ∑ i : Fin T, ∑ j : Fin W, f (tile h i j) := by
  subst h
  rw [← Equiv.sum_comp finProdFinEquiv f, Fintype.sum_prod_type]
  rfl

/-- An infimum over T·W positions, tile by tile: position W·i + j is entry j of tile i. -/
theorem iInf_tiles {T W : ℕ} (f : Fin (T * W) → EReal) :
    ⨅ k, f k = ⨅ i : Fin T, ⨅ j : Fin W, f (finProdFinEquiv (i, j)) := by
  rw [← Equiv.iInf_comp (g := f) finProdFinEquiv, iInf_prod]

/-- A sum over T·W positions, tile by tile. -/
theorem sum_tiles {M : Type} [AddCommMonoid M] {T W : ℕ} (f : Fin (T * W) → M) :
    ∑ k, f k = ∑ i : Fin T, ∑ j : Fin W, f (finProdFinEquiv (i, j)) := by
  rw [← Equiv.sum_comp finProdFinEquiv f, Fintype.sum_prod_type]

/-- A vector of n entries laid out as one row reads entry q at (0, q). -/
theorem rowCast_apply {α : Type} (v : (⟨1, ![b]⟩ : Shape).Idx → α) (h : (⟨1, ![b]⟩ : Shape).ShapeCasts ⟨2, ![1, b]⟩) (q : Fin b) :
    shapeCast ⟨2, ![1, b]⟩ v h (ix2 (0 : Fin 1) q) = v (ix1 q) :=
  shapeCast_apply v h (ix2 (0 : Fin 1) q) (ix1 q) (by
    rw [Shape.rowMajor_val_one, Shape.rowMajor_val_two]; show q.val = 0 * b + q.val; omega)

/-- A vector stood up as a column reads entry p at (p, 0). -/
theorem colCast_apply {α : Type} (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply {α : Type} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A row spread over a rows reads its entry (0, q) at every (p, q). -/
theorem rowBcast_apply {α : Type} (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A rank-3 array with a leading unit axis viewed as a matrix reads (0, r, k) at (r, k). -/
theorem dropLead_apply {α : Type} (v : (⟨3, ![1, a, b]⟩ : Shape).Idx → α) (h : (⟨3, ![1, a, b]⟩ : Shape).ShapeCasts ⟨2, ![a, b]⟩)
    (r : Fin a) (k : Fin b) : shapeCast ⟨2, ![a, b]⟩ v h (ix2 r k) = v (ix3 (0 : Fin 1) r k) :=
  shapeCast_apply v h (ix2 r k) (ix3 (0 : Fin 1) r k) (by
    rw [Shape.rowMajor_val_three, Shape.rowMajor_val_two]
    show (0 * a + r.val) * b + k.val = r.val * b + k.val
    rw [Nat.zero_mul, Nat.zero_add])

/-- A vector reduction's row sum from zero: the sum of the row's entries. -/
theorem rowSum_vector (src : FVec Ideal ⟨2, ![a, b]⟩ .f32)
    (h : (⟨2, ![a, b]⟩ : Shape).Reduces [1] (⟨1, ![a]⟩ : Shape)) (p : Fin a) :
    multiReduction .add [1] ⟨1, ![a]⟩ src 0x00000000#32 h (.inl rfl) rfl (ix1 p) = ∑ j : Fin b, src (ix2 p j) := by
  refine (Ideal.multiReduction_add_single src 0x00000000#32 h (.inl rfl) rfl (ix1 p)).trans ?_
  exact Finset.sum_congr rfl fun k _ => congrArg src (lift_row h p k)

/-- A vector reduction's column sum from zero: the sum of the column's entries. -/
theorem colSum_vector (src : FVec Ideal ⟨2, ![a, b]⟩ .f32)
    (h : (⟨2, ![a, b]⟩ : Shape).Reduces [0] (⟨1, ![b]⟩ : Shape)) (q : Fin b) :
    multiReduction .add [0] ⟨1, ![b]⟩ src 0x00000000#32 h (.inl rfl) rfl (ix1 q) = ∑ p : Fin a, src (ix2 p q) := by
  refine (Ideal.multiReduction_add_single src 0x00000000#32 h (.inl rfl) rfl (ix1 q)).trans ?_
  exact Finset.sum_congr rfl fun k _ => congrArg src (lift_col h q k)

end Idealize.ShloMosaic.MinOps

end
-- ==== Proof.KernelPayload.lean ====
/-
  The kernel body's arithmetic read at an index, over the extended reals.

  One step of the kernel takes a block x of 512 points of the first cloud and a block y of 512 points of the second
  (four batches, three coordinates) and the running minimum so far. It forms the squared norms of the points of each
  block (a sum over the three coordinates from 0), the inner products ⟨x_r, y_k⟩ (a batched product contracting the
  coordinate axis into a zero accumulator; the narrowing of the operands beforehand is the identity here), spreads the
  squared norms of x as a column and those of y as a row over the 512 × 512 pairs, and so has at (b, r, k) the clamped
  squared distance max ((‖x_r‖² + ‖y_k‖²) − 2·⟨x_r, y_k⟩) 0. It minimises that over k from +∞ and takes the minimum with
  the running value. So at (b, r) the step's value is the minimum of the running value and the infimum over k of the
  clamped distances; the value the running minimum is reset to is +∞.
-/
import proofs.«112426_j38843684225041_1_alg».proof.Proof.Gen.KernelIdeal.Skeleton
import proofs.«112426_j38843684225041_1_alg».proof.Proof.LibMinOps
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The block's quantities -/

/-- The squared norm of point r of batch b of a block. -/
def blkSq (x : S4x512x3.Idx → EReal) (b : Fin 4) (r : Fin 512) : EReal := ∑ d : Fin 3, x (ix3 b r d) * x (ix3 b r d)

/-- The inner product of point r of x and point k of y. -/
def blkInner (x y : S4x512x3.Idx → EReal) (b : Fin 4) (r k : Fin 512) : EReal := ∑ d : Fin 3, x (ix3 b r d) * y (ix3 b k d)

/-- The clamped squared distance between point r of x and point k of y; the literals 2 and 0 stay as f32 words. -/
def blkDist (x y : S4x512x3.Idx → EReal) (b : Fin 4) (r k : Fin 512) : EReal :=
  max ((blkSq x b r + blkSq y b k) - Ideal.ofBits .f32 0x40000000#32 * blkInner x y b r k) (Ideal.ofBits .f32 0x00000000#32)

/-! ## The reductions over the last axis of a rank-3 array -/

section General
variable {a b c : Nat} {α : Type}

/-- A vector reduction's sum from zero over the last axis, at (p, q): the sum of the entries (p, q, k). -/
theorem laneSum_last (src : FVec Ideal ⟨3, ![a, b, c]⟩ .f32)
    (h : (⟨3, ![a, b, c]⟩ : Shape).Reduces [2] (⟨2, ![a, b]⟩ : Shape)) (p : Fin a) (q : Fin b) :
    multiReduction .add [2] ⟨2, ![a, b]⟩ src 0x00000000#32 h (.inl rfl) rfl (ix2 p q) = ∑ k : Fin c, src (ix3 p q k) := by
  refine (Ideal.multiReduction_add_single src 0x00000000#32 h (.inl rfl) rfl (ix2 p q)).trans ?_
  exact Finset.sum_congr rfl fun k _ => congrArg src (MinOps.lift_last h p q k)

/-- A vector reduction's minimum from +∞ over the last axis, at (p, q): the infimum of the entries (p, q, k). -/
theorem laneMin_last (src : FVec Ideal ⟨3, ![a, b, c]⟩ .f32)
    (h : (⟨3, ![a, b, c]⟩ : Shape).Reduces [2] (⟨2, ![a, b]⟩ : Shape)) (p : Fin a) (q : Fin b) :
    multiReduction .minimumf [2] ⟨2, ![a, b]⟩ src 0x7F800000#32 h (.inl rfl) rfl (ix2 p q) = ⨅ k : Fin c, src (ix3 p q k) := by
  refine (multiReduction_minimumf_eq_fold src _ h (.inl rfl) rfl (ix2 p q)).trans ?_
  refine (h.fold_filter_drop_single _ _ src (ix2 p q)).trans ?_
  have hf : (src ∘ h.lift (ix2 p q)) = fun k : Fin c => src (ix3 p q k) :=
    funext fun k => congrArg src (MinOps.lift_last h p q k)
  refine (congrArg (fun f => Finset.fold min (Ideal.ofBits .f32 0x7F800000#32) f (Finset.univ : Finset (Fin c))) hf).trans ?_
  rw [MinOps.ofBits_posInf]; exact MinOps.fold_min_top _

/-! ## A per-point array spread over pairs of points -/

/-- An a × b array stood up as a × b × 1 reads (p, q) at (p, q, 0). -/
theorem colCast_apply (v : (⟨2, ![a, b]⟩ : Shape).Idx → α) (h : (⟨2, ![a, b]⟩ : Shape).ShapeCasts ⟨3, ![a, b, 1]⟩)
    (p : Fin a) (q : Fin b) (u : Fin 1) : shapeCast ⟨3, ![a, b, 1]⟩ v h (ix3 p q u) = v (ix2 p q) :=
  shapeCast_apply v h (ix3 p q u) (ix2 p q) (by
    have hu : u.val = 0 := by omega
    rw [Shape.rowMajor_val_two, Shape.rowMajor_val_three]
    show p.val * b + q.val = (p.val * b + q.val) * 1 + u.val
    rw [hu, Nat.mul_one, Nat.add_zero])

/-- An a × c array laid out as a × 1 × c reads (p, k) at (p, 0, k). -/
theorem rowCast_apply (v : (⟨2, ![a, c]⟩ : Shape).Idx → α) (h : (⟨2, ![a, c]⟩ : Shape).ShapeCasts ⟨3, ![a, 1, c]⟩)
    (p : Fin a) (u : Fin 1) (k : Fin c) : shapeCast ⟨3, ![a, 1, c]⟩ v h (ix3 p u k) = v (ix2 p k) :=
  shapeCast_apply v h (ix3 p u k) (ix2 p k) (by
    have hu : u.val = 0 := by omega
    rw [Shape.rowMajor_val_two, Shape.rowMajor_val_three]
    show p.val * c + k.val = (p.val * 1 + u.val) * c + k.val
    rw [hu, Nat.mul_one, Nat.add_zero])

/-- An a × b × 1 array spread over c columns reads its entry (p, q, 0) at every (p, q, k). -/
theorem colBcast_apply (v : (⟨3, ![a, b, 1]⟩ : Shape).Idx → α) (h : (⟨3, ![a, b, 1]⟩ : Shape).Broadcasts ⟨3, ![a, b, c]⟩)
    (p : Fin a) (q : Fin b) (k : Fin c) : broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An a × 1 × c array spread over b rows reads its entry (p, 0, k) at every (p, q, k). -/
theorem rowBcast_apply (v : (⟨3, ![a, 1, c]⟩ : Shape).Idx → α) (h : (⟨3, ![a, 1, c]⟩ : Shape).Broadcasts ⟨3, ![a, b, c]⟩)
    (p : Fin a) (q : Fin b) (k : Fin c) : broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

end General

/-! ## The batched product at an index -/

theorem lhs_0 (i : S4x512x512.Idx) (q : dot_S4x512x3_S4x512x3_S4x512x512_2_2_1_1_0_0.contr.Idx) :
    (dot_S4x512x3_S4x512x3_S4x512x512_2_2_1_1_0_0.lhsIdx i q 0).val = (i 0).val := by
  unfold DotDims.lhsIdx
  rw [dif_pos (show (0 : Fin S4x512x3.rank) ∈ dot_S4x512x3_S4x512x3_S4x512x512_2_2_1_1_0_0.lhsBatch by decide)]
  rfl
theorem lhs_1 (i : S4x512x512.Idx) (q : dot_S4x512x3_S4x512x3_S4x512x512_2_2_1_1_0_0.contr.Idx) :
    (dot_S4x512x3_S4x512x3_S4x512x512_2_2_1_1_0_0.lhsIdx i q 1).val = (i 1).val := by
  unfold DotDims.lhsIdx
  rw [dif_neg (show ¬(1 : Fin S4x512x3.rank) ∈ dot_S4x512x3_S4x512x3_S4x512x512_2_2_1_1_0_0.lhsBatch by decide), dif_pos (show (1 : Fin S4x512x3.rank) ∈ dot_S4x512x3_S4x512x3_S4x512x512_2_2_1_1_0_0.lhsNonContracting by decide)]
  rfl
theorem lhs_2 (i : S4x512x512.Idx) (q : dot_S4x512x3_S4x512x3_S4x512x512_2_2_1_1_0_0.contr.Idx) :
    (dot_S4x512x3_S4x512x3_S4x512x512_2_2_1_1_0_0.lhsIdx i q 2).val = (q ⟨0, by decide⟩).val :=
  dot_S4x512x3_S4x512x3_S4x512x512_2_2_1_1_0_0.lhsIdx_val_of_single rfl i q
theorem rhs_0 (i : S4x512x512.Idx) (q : dot_S4x512x3_S4x512x3_S4x512x512_2_2_1_1_0_0.contr.Idx) :
    (dot_S4x512x3_S4x512x3_S4x512x512_2_2_1_1_0_0.rhsIdx i q 0).val = (i 0).val := by
  unfold DotDims.rhsIdx
  rw [dif_pos (show (0 : Fin S4x512x3.rank) ∈ dot_S4x512x3_S4x512x3_S4x512x512_2_2_1_1_0_0.rhsBatch by decide)]
  rfl
theorem rhs_1 (i : S4x512x512.Idx) (q : dot_S4x512x3_S4x512x3_S4x512x512_2_2_1_1_0_0.contr.Idx) :
    (dot_S4x512x3_S4x512x3_S4x512x512_2_2_1_1_0_0.rhsIdx i q 1).val = (i 2).val := by
  unfold DotDims.rhsIdx
  rw [dif_neg (show ¬(1 : Fin S4x512x3.rank) ∈ dot_S4x512x3_S4x512x3_S4x512x512_2_2_1_1_0_0.rhsBatch by decide), dif_pos (show (1 : Fin S4x512x3.rank) ∈ dot_S4x512x3_S4x512x3_S4x512x512_2_2_1_1_0_0.rhsNonContracting by decide)]
  rfl
theorem rhs_2 (i : S4x512x512.Idx) (q : dot_S4x512x3_S4x512x3_S4x512x512_2_2_1_1_0_0.contr.Idx) :
    (dot_S4x512x3_S4x512x3_S4x512x512_2_2_1_1_0_0.rhsIdx i q 2).val = (q ⟨0, by decide⟩).val :=
  dot_S4x512x3_S4x512x3_S4x512x512_2_2_1_1_0_0.rhsIdx_val_of_single rfl i q

/-- The batched product into a zero accumulator, at (b, r, k): the sum over the coordinate d of x at (b, r, d) times y at
    (b, k, d). -/
theorem matmul_at {φ₁ φ₂ : FTy} (x : FVec Ideal S4x512x3 φ₁) (y : FVec Ideal S4x512x3 φ₂) (b : Fin 4) (r k : Fin 512) :
    matmul dot_S4x512x3_S4x512x3_S4x512x512_2_2_1_1_0_0 none x y (constant (F := Ideal) S4x512x512 .f32 0x00000000#32) (ix3 b r k)
      = ∑ d : Fin 3, x (ix3 b r d) * y (ix3 b k d) := by
  refine (Ideal.matmul_constant_zero_apply dot_S4x512x3_S4x512x3_S4x512x512_2_2_1_1_0_0 none x y (ix3 b r k)).trans ?_
  rw [← Equiv.sum_comp (contrEquiv1 dot_S4x512x3_S4x512x3_S4x512x512_2_2_1_1_0_0 3 rfl rfl).symm]
  refine Finset.sum_congr rfl fun d _ => ?_
  have hk := contrEquiv1_symm_val dot_S4x512x3_S4x512x3_S4x512x512_2_2_1_1_0_0 3 rfl rfl d
  have el : dot_S4x512x3_S4x512x3_S4x512x512_2_2_1_1_0_0.lhsIdx (ix3 b r k) ((contrEquiv1 dot_S4x512x3_S4x512x3_S4x512x512_2_2_1_1_0_0 3 rfl rfl).symm d) = ix3 b r d := funext fun a => Fin.ext (by
    match a with
    | ⟨0, _⟩ => exact lhs_0 _ _
    | ⟨1, _⟩ => exact lhs_1 _ _
    | ⟨2, _⟩ => exact (lhs_2 _ _).trans hk)
  have er : dot_S4x512x3_S4x512x3_S4x512x512_2_2_1_1_0_0.rhsIdx (ix3 b r k) ((contrEquiv1 dot_S4x512x3_S4x512x3_S4x512x512_2_2_1_1_0_0 3 rfl rfl).symm d) = ix3 b k d := funext fun a => Fin.ext (by
    match a with
    | ⟨0, _⟩ => exact rhs_0 _ _
    | ⟨1, _⟩ => exact rhs_1 _ _
    | ⟨2, _⟩ => exact (rhs_2 _ _).trans hk)
  rw [el, er]

/-! ## The two payloads -/

/-- The value the running minimum is reset to: +∞ everywhere. -/
theorem pay1_at (b : Fin 4) (r : Fin 512) : Cert.KernelIdeal.Gen.k0_pay1 (F := Ideal) (ix2 b r) = (⊤ : EReal) := by
  unfold Gen.k0_pay1
  refine (congrFun (shapeCast_self _ shapeCasts_S4x512_S4x512) (ix2 b r)).trans ?_
  exact MinOps.ofBits_posInf

/-- One step at (b, r): the minimum of the running value and the infimum over k of the clamped squared distances from
    point r of x to point k of y. -/
theorem pay2_at (x y : Vec Ideal S4x512x3 .f32) (prev : Vec Ideal S4x512 .f32) (b : Fin 4) (r : Fin 512) :
    Cert.KernelIdeal.Gen.k0_pay2 (F := Ideal) x y prev (ix2 b r) = min (prev (ix2 b r)) (⨅ k : Fin 512, blkDist x y b r k) := by
  unfold Gen.k0_pay2
  refine (congrFun (shapeCast_self _ shapeCasts_S4x512_S4x512) (ix2 b r)).trans ?_
  refine (minimumf_apply _ _ (ix2 b r)).trans ?_
  refine congrArg (min (prev (ix2 b r))) ?_
  refine (laneMin_last _ reduces_S4x512x512_S4x512 b r).trans (iInf_congr fun k => ?_)
  refine (maximumf_apply _ _ (ix3 b r k)).trans ?_
  unfold blkDist
  refine congrArg₂ max ?_ rfl
  refine (subf_apply _ _ (ix3 b r k)).trans ?_
  refine congrArg₂ (· - ·) ?_ ?_
  · refine (addf_apply _ _ (ix3 b r k)).trans ?_
    refine congrArg₂ (· + ·) ?_ ?_
    · refine (colBcast_apply _ broadcasts_S4x512x1_S4x512x512 b r k).trans ?_
      refine (colCast_apply _ shapeCasts_S4x512_S4x512x1 b r 0).trans ?_
      exact laneSum_last _ reduces_S4x512x3_S4x512 b r
    · refine (rowBcast_apply _ broadcasts_S4x1x512_S4x512x512 b r k).trans ?_
      refine (rowCast_apply _ shapeCasts_S4x512_S4x1x512 b 0 k).trans ?_
      exact laneSum_last _ reduces_S4x512x3_S4x512 b k
  · refine (mulf_apply _ _ (ix3 b r k)).trans ?_
    refine congrArg₂ (· * ·) rfl ?_
    exact matmul_at _ _ b r k

end Cert.KernelIdeal.Payload

end
-- ==== Proof.TileMin.lean ====
/-
  A running minimum over consecutive tiles.

  The 8192 positions are cut into 16 tiles of 512 consecutive positions, position 512·i + k being entry k of tile i.
  Starting from +∞ and taking, tile after tile, the minimum of the value so far and the tile's infimum gives after
  tile j the infimum of f over the tiles 0 … j, and after the last tile the infimum of f over all positions.
-/
import proofs.«112426_j38843684225041_1_alg».proof.Proof.LibMinOps

noncomputable section

namespace Cert.Chamfer

open Idealize.ShloMosaic.MinOps

theorem h8192 : 16 * 512 = 8192 := by norm_num

/-- The infimum of f over the tiles 0 … j (all 16 tiles when j ≥ 15). -/
def partialInf (f : Fin 8192 → EReal) (j : ℕ) : EReal :=
  ⨅ i : Fin 16, ⨅ k : Fin 512, if i.val ≤ j then f (tile h8192 i k) else ⊤

/-- The infimum over the tiles 0 … j of per-tile values g. -/
def upTo (g : Fin 16 → EReal) (j : ℕ) : EReal := ⨅ i : Fin 16, if i.val ≤ j then g i else ⊤

/-- Whether a tile counts does not depend on the entry, so the condition moves outside the tile's infimum. -/
theorem partialInf_eq_upTo (f : Fin 8192 → EReal) (j : ℕ) :
    partialInf f j = upTo (fun i => ⨅ k : Fin 512, f (tile h8192 i k)) j := by
  unfold partialInf upTo
  refine iInf_congr fun i => ?_
  by_cases hc : i.val ≤ j
  · simp only [if_pos hc]
  · simp only [if_neg hc, iInf_top]

/-- Up to tile 0 there is only tile 0. -/
theorem upTo_zero (g : Fin 16 → EReal) : upTo g 0 = min ⊤ (g 0) := by
  unfold upTo
  refine le_antisymm (le_min le_top (iInf_le_of_le 0 (by rw [if_pos (show (0 : Fin 16).val ≤ 0 from Nat.le_refl 0)]))) (le_iInf fun i => ?_)
  by_cases hc : i.val ≤ 0
  · rw [if_pos hc]
    obtain rfl : i = 0 := Fin.ext (by have : (0 : Fin 16).val = 0 := rfl; omega)
    exact min_le_right _ _
  · rw [if_neg hc]; exact le_top

/-- One more tile: the tiles up to j + 1 are the tiles up to j and tile j + 1. -/
theorem upTo_succ (g : Fin 16 → EReal) (j : ℕ) (hj : j + 1 < 16) : upTo g (j + 1) = min (upTo g j) (g ⟨j + 1, hj⟩) := by
  unfold upTo
  refine le_antisymm (le_min (le_iInf fun i => ?_) (iInf_le_of_le ⟨j + 1, hj⟩ (by rw [if_pos (Nat.le_refl _)]))) (le_iInf fun i => ?_)
  · by_cases hc : i.val ≤ j
    · rw [if_pos hc]; exact iInf_le_of_le i (by rw [if_pos (Nat.le_succ_of_le hc)])
    · rw [if_neg hc]; exact le_top
  · by_cases hc : i.val ≤ j + 1
    · rw [if_pos hc]
      by_cases hc' : i.val ≤ j
      · exact (min_le_left _ _).trans (iInf_le_of_le i (by rw [if_pos hc']))
      · obtain rfl : i = ⟨j + 1, hj⟩ := Fin.ext (by show i.val = j + 1; omega)
        exact min_le_right _ _
    · rw [if_neg hc]; exact le_top

/-- Up to the last tile every tile counts. -/
theorem upTo_last (g : Fin 16 → EReal) : upTo g 15 = ⨅ i : Fin 16, g i := by
  unfold upTo
  exact iInf_congr fun i => if_pos (Nat.le_of_lt_succ i.isLt)

theorem partialInf_zero (f : Fin 8192 → EReal) : partialInf f 0 = min ⊤ (⨅ k : Fin 512, f (tile h8192 0 k)) := by
  rw [partialInf_eq_upTo, upTo_zero]

theorem partialInf_succ (f : Fin 8192 → EReal) (j : ℕ) (hj : j + 1 < 16) :
    partialInf f (j + 1) = min (partialInf f j) (⨅ k : Fin 512, f (tile h8192 ⟨j + 1, hj⟩ k)) := by
  rw [partialInf_eq_upTo, partialInf_eq_upTo, upTo_succ _ j hj]

theorem partialInf_last (f : Fin 8192 → EReal) : partialInf f 15 = ⨅ m : Fin 8192, f m := by
  rw [partialInf_eq_upTo, upTo_last]
  exact (iInf_tile h8192 f).symm

/-- Entry k of tile i is position 512·i + k. -/
theorem tile_val' (i : Fin 16) (k : Fin 512) : (tile h8192 i k).val = 512 * i.val + k.val := tile_val h8192 i k

end Cert.Chamfer

end
-- ==== Proof.Spec.lean ====
/-
  The Chamfer distance of two clouds of 8192 points in ℝ³ (four batches), over the extended reals.

  For clouds x, y the clamped squared distance between point n of x and point m of y (batch b) is
    max ((‖x_n‖² + ‖y_m‖²) − 2·⟨x_n, y_m⟩) 0,
  the nearest-neighbour array of x against y holds at (b, n) the infimum of that over all m, and the result is
  half the sum of the two means of the square roots of the two nearest-neighbour arrays (x against y, y against x).
  The clamped distance is symmetric under swapping the clouds together with the two points: only commutativity of
  + and · is used, so no finiteness is needed.
-/
import Idealize.ShloMosaic.PureOps.Ideal
import Idealize.ShloMosaic.Lib.ValueIdx

noncomputable section

open scoped BigOperators

namespace Cert.Chamfer

open Idealize.ShloMosaic Idealize.ShloMosaic.ValueIdx

/-- A cloud: 4 batches of 8192 points with 3 coordinates. -/
abbrev Cloud : Shape := ⟨3, ![4, 8192, 3]⟩
/-- One number per point of a cloud. -/
abbrev PerPoint : Shape := ⟨2, ![4, 8192]⟩
/-- A single number. -/
abbrev One : Shape := ⟨0, ![]⟩

/-- The squared norm of point n of batch b. -/
def sqNorm (x : Cloud.Idx → EReal) (b : Fin 4) (n : Fin 8192) : EReal := ∑ d : Fin 3, x (ix3 b n d) * x (ix3 b n d)

/-- The inner product of point n of x and point m of y. -/
def inner (x y : Cloud.Idx → EReal) (b : Fin 4) (n m : Fin 8192) : EReal := ∑ d : Fin 3, x (ix3 b n d) * y (ix3 b m d)

/-- The clamped squared distance between point n of x and point m of y; the literals 2 and 0 stay as f32 words. -/
def dist (x y : Cloud.Idx → EReal) (b : Fin 4) (n m : Fin 8192) : EReal :=
  max ((sqNorm x b n + sqNorm y b m) - Ideal.ofBits .f32 0x40000000#32 * inner x y b n m) (Ideal.ofBits .f32 0x00000000#32)

/-- Swapping the clouds and the points leaves the clamped distance unchanged. -/
theorem dist_swap (x y : Cloud.Idx → EReal) (b : Fin 4) (n m : Fin 8192) : dist x y b n m = dist y x b m n := by
  unfold dist inner
  rw [add_comm (sqNorm x b n)]
  simp only [mul_comm (x _) (y _)]

/-- The squared distance from point n of x to the nearest point of y. -/
def nearest (x y : Cloud.Idx → EReal) (b : Fin 4) (n : Fin 8192) : EReal := ⨅ m : Fin 8192, dist x y b n m

/-- The nearest-neighbour array of x against y. -/
def nearestArr (x y : Cloud.Idx → EReal) : PerPoint.Idx → EReal := fun j => nearest x y (j 0) (j 1)

theorem nearestArr_apply (x y : Cloud.Idx → EReal) (b : Fin 4) (n : Fin 8192) :
    nearestArr x y (ix2 b n) = nearest x y b n := rfl

/-- Minimising the distances from x over the points of x, for each point m of y, is the nearest-neighbour value of y against x. -/
theorem iInf_dist_swap (x y : Cloud.Idx → EReal) (b : Fin 4) (m : Fin 8192) :
    ⨅ n : Fin 8192, dist x y b n m = nearest y x b m := by
  unfold nearest
  exact iInf_congr fun n => dist_swap x y b n m

/-- Half the sum of the means of the square roots of two per-point arrays, as the host computes it
    (a sum from 0, a quotient by 32768, a sum, a product with 0.5). -/
def halfMeans (h : PerPoint.ReducesTo [0, 1] One) (hs : 0 < One.numel) (d1 d2 : FVec Ideal PerPoint .f32) : FVec Ideal One .f32 :=
  mulf (F := Ideal)
    (addf (F := Ideal)
      (Host.divf (F := Ideal) (Host.reduceAdd (F := Ideal) (Host.sqrt (F := Ideal) d1) (constant (F := Ideal) One .f32 0x00000000#32) h hs) (constant (F := Ideal) One .f32 0x47000000#32))
      (Host.divf (F := Ideal) (Host.reduceAdd (F := Ideal) (Host.sqrt (F := Ideal) d2) (constant (F := Ideal) One .f32 0x00000000#32) h hs) (constant (F := Ideal) One .f32 0x47000000#32)))
    (constant (F := Ideal) One .f32 0x3F000000#32)

/-- The Chamfer value of two clouds. -/
def chamfer (h : PerPoint.ReducesTo [0, 1] One) (hs : 0 < One.numel) (x y : Cloud.Idx → EReal) : FVec Ideal One .f32 :=
  halfMeans h hs (nearestArr x y) (nearestArr y x)

end Cert.Chamfer

end
-- ==== Proof.KernelValue.lean ====
/-
  The kernel's two calls, from what each grid point leaves to the whole output arrays.

  Each call walks a 16 × 16 grid; point t is row tile t / 16 and column tile t % 16. Its first input block is the
  512 points of one cloud at the row tile, its second the 512 points of the other cloud at the column tile, so the
  body's clamped block distances at (b, r, k) are the clamped squared distances between point 512·(t/16) + r of the
  first cloud and point 512·(t%16) + k of the second. Along a row tile the running minimum, reset to +∞ at column
  tile 0 and lowered at every column tile by that tile's infimum, is after column tile j the infimum over the tiles
  0 … j; at column tile 15 it is the infimum over all 8192 points of the second cloud: the nearest-neighbour value of
  the row's points. That is what is written back there, into the row tile's block of the output, and the 16 row tiles'
  blocks fill the output array. The second call is the first with the clouds exchanged.
-/
import proofs.«112426_j38843684225041_1_alg».proof.Proof.KernelIdeal.Data
import proofs.«112426_j38843684225041_1_alg».proof.Proof.KernelPayload
import proofs.«112426_j38843684225041_1_alg».proof.Proof.TileMin
import proofs.«112426_j38843684225041_1_alg».proof.Proof.Spec
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Body Cert.KernelIdeal.Payload Cert.Chamfer Idealize.ShloMosaic.ValueIdx Idealize.ShloMosaic.MinOps

variable (V : (c : Dev nD) → (b : Ref sig .tc) → Buf (Elt Ideal) ((c : Thread nD τ).loc b))

/-! ## Row tile and column tile of a grid point -/

/-- The row tile of point n of a 16 × 16 grid. -/
def rowT (n : ℕ) (hn : n < 256) : Fin 16 := ⟨n / 16, by omega⟩
/-- The column tile of point n. -/
def colT (n : ℕ) : Fin 16 := ⟨n % 16, Nat.mod_lt _ (by norm_num)⟩

/-! # Call 0 -/

/-- The printed index maps, decided over the grid: the first window's block is at the row tile, the second's at the
    column tile, the output's at the row tile. -/
theorem idx_facts0 : ∀ t : Fin cfg0.N,
    win0_0.index t (0 : Fin 3) = 0 ∧ win0_0.index t (1 : Fin 3) = t.val / 16 ∧ win0_0.index t (2 : Fin 3) = 0
    ∧ win0_1.index t (0 : Fin 3) = 0 ∧ win0_1.index t (1 : Fin 3) = t.val % 16 ∧ win0_1.index t (2 : Fin 3) = 0
    ∧ win0_2.index t (0 : Fin 2) = 0 ∧ win0_2.index t (1 : Fin 2) = t.val / 16 :=
  (by decide +kernel : ∀ t : Fin grid0.N, _)

theorem lt256_0 (t : Fin cfg0.N) : t.val < 256 := lt_of_lt_of_eq t.isLt (show cfg0.N = 256 from N_0)

/-- The first window's block at point t holds the points of the row tile t / 16. -/
theorem rowBlk0 (c : Dev nD) (t : Fin cfg0.N) (b : Fin 4) (r : Fin 512) (d : Fin 3) :
    iblk0 V c 0 t (ix3 b r d) = (V c main_arg0 : S4x8192x3.Idx → EReal) (ix3 b (tile h8192 (rowT t.val (lt256_0 t)) r) d) := by
  obtain ⟨e0, e1, e2, -, -, -, -, -⟩ := idx_facts0 t
  have hv := tile_val' (rowT t.val (lt256_0 t)) r
  unfold iblk0
  rw [View.read_apply]
  show (V c main_arg0 : S4x8192x3.Idx → EReal) (((cfg0.win 0).blk t).view.emb (ix3 b r d)) = _
  refine congrArg _ (funext fun a => Fin.ext ?_)
  match a with
  | ⟨0, _⟩ => show win0_0.index t (0 : Fin 3) * 4 + 1 * b.val = b.val; rw [e0]; omega
  | ⟨1, _⟩ => show win0_0.index t (1 : Fin 3) * 512 + 1 * r.val = (tile h8192 (rowT t.val (lt256_0 t)) r).val; rw [e1, hv]; show _ = 512 * (t.val / 16) + r.val; omega
  | ⟨2, _⟩ => show win0_0.index t (2 : Fin 3) * 3 + 1 * d.val = d.val; rw [e2]; omega

/-- The second window's block at point t holds the points of the column tile t % 16. -/
theorem colBlk0 (c : Dev nD) (t : Fin cfg0.N) (b : Fin 4) (k : Fin 512) (d : Fin 3) :
    iblk0 V c 1 t (ix3 b k d) = (V c main_arg1 : S4x8192x3.Idx → EReal) (ix3 b (tile h8192 (colT t.val) k) d) := by
  obtain ⟨-, -, -, e0, e1, e2, -, -⟩ := idx_facts0 t
  have hv := tile_val' (colT t.val) k
  unfold iblk0
  rw [View.read_apply]
  show (V c main_arg1 : S4x8192x3.Idx → EReal) (((cfg0.win 1).blk t).view.emb (ix3 b k d)) = _
  refine congrArg _ (funext fun a => Fin.ext ?_)
  match a with
  | ⟨0, _⟩ => show win0_1.index t (0 : Fin 3) * 4 + 1 * b.val = b.val; rw [e0]; omega
  | ⟨1, _⟩ => show win0_1.index t (1 : Fin 3) * 512 + 1 * k.val = (tile h8192 (colT t.val) k).val; rw [e1, hv]; show _ = 512 * (t.val % 16) + k.val; omega
  | ⟨2, _⟩ => show win0_1.index t (2 : Fin 3) * 3 + 1 * d.val = d.val; rw [e2]; omega

/-- So the block distances at point t are the clouds' clamped squared distances between the row tile's points and the
    column tile's points. -/
theorem blkDist0 (c : Dev nD) (t : Fin cfg0.N) (b : Fin 4) (r k : Fin 512) :
    blkDist (iblk0 V c 0 t) (iblk0 V c 1 t) b r k
      = Cert.Chamfer.dist (V c main_arg0) (V c main_arg1) b (tile h8192 (rowT t.val (lt256_0 t)) r) (tile h8192 (colT t.val) k) := by
  have hx : blkSq (iblk0 V c 0 t) b r = Cert.Chamfer.sqNorm (V c main_arg0) b (tile h8192 (rowT t.val (lt256_0 t)) r) :=
    Finset.sum_congr rfl fun d _ => by rw [rowBlk0 V c t b r d]
  have hy : blkSq (iblk0 V c 1 t) b k = Cert.Chamfer.sqNorm (V c main_arg1) b (tile h8192 (colT t.val) k) :=
    Finset.sum_congr rfl fun d _ => by rw [colBlk0 V c t b k d]
  have hxy : blkInner (iblk0 V c 0 t) (iblk0 V c 1 t) b r k
      = Cert.Chamfer.inner (V c main_arg0) (V c main_arg1) b (tile h8192 (rowT t.val (lt256_0 t)) r) (tile h8192 (colT t.val) k) :=
    Finset.sum_congr rfl fun d _ => by rw [rowBlk0 V c t b r d, colBlk0 V c t b k d]
  unfold blkDist Cert.Chamfer.dist
  rw [hx, hy, hxy]

/-- One step at point t: the running value lowered by the column tile's infimum of the distances from the row's point. -/
theorem step0 (c : Dev nD) (t : Fin cfg0.N) (prev : Vec Ideal S4x512 .f32) (b : Fin 4) (r : Fin 512) :
    k0_pay2 (F := Ideal) (iblk0 V c 0 t) (iblk0 V c 1 t) prev (ix2 b r)
      = min (prev (ix2 b r)) (⨅ k : Fin 512, Cert.Chamfer.dist (V c main_arg0) (V c main_arg1) b (tile h8192 (rowT t.val (lt256_0 t)) r) (tile h8192 (colT t.val) k)) :=
  (pay2_at _ _ prev b r).trans (congrArg (min (prev (ix2 b r))) (iInf_congr fun k => blkDist0 V c t b r k))

/-- THE INVARIANT: after point n the running minimum at (b, r) is the infimum of the distances from point r of the row
    tile n / 16 to the points of the column tiles 0 … n % 16. -/
theorem acc0 (c : Dev nD) (b : Fin 4) (r : Fin 512) : ∀ (n : ℕ) (hn : n < cfg0.N),
    accAt0 V c n hn (ix2 b r)
      = partialInf (fun mm => Cert.Chamfer.dist (V c main_arg0) (V c main_arg1) b (tile h8192 (rowT n (lt256_0 ⟨n, hn⟩)) r) mm) (n % 16) := by
  intro n
  induction n with
  | zero =>
    intro hn
    refine (congrFun (accAt0_first V c ⟨0, hn⟩ rfl) (ix2 b r)).trans ?_
    refine (step0 V c ⟨0, hn⟩ _ b r).trans ?_
    rw [pay1_at]
    exact (partialInf_zero _).symm
  | succ n ih =>
    intro hn
    by_cases h : (n + 1) % 16 = 0
    · refine (congrFun (accAt0_first V c ⟨n + 1, hn⟩ h) (ix2 b r)).trans ?_
      refine (step0 V c ⟨n + 1, hn⟩ _ b r).trans ?_
      rw [pay1_at, h]
      have hc : colT (n + 1) = 0 := Fin.ext h
      show min ⊤ (⨅ k : Fin 512, Cert.Chamfer.dist (V c main_arg0) (V c main_arg1) b _ (tile h8192 (colT (n + 1)) k)) = _
      rw [hc]
      exact (partialInf_zero _).symm
    · refine (congrFun (accAt0_next V c ⟨n + 1, hn⟩ h) (ix2 b r)).trans ?_
      refine (step0 V c ⟨n + 1, hn⟩ _ b r).trans ?_
      have hprev := ih (Nat.lt_of_succ_lt hn)
      have h256 : n + 1 < 256 := lt256_0 ⟨n + 1, hn⟩
      have hrow : rowT n (lt256_0 ⟨n, Nat.lt_of_succ_lt hn⟩) = rowT (n + 1) h256 := Fin.ext (by show n / 16 = (n + 1) / 16; omega)
      have hj : n % 16 + 1 < 16 := by omega
      have hcol : colT (n + 1) = ⟨n % 16 + 1, hj⟩ := Fin.ext (by show (n + 1) % 16 = n % 16 + 1; omega)
      have hmod : (n + 1) % 16 = n % 16 + 1 := by omega
      show min (accAt0 V c n (Nat.lt_of_succ_lt hn) (ix2 b r)) (⨅ k : Fin 512, Cert.Chamfer.dist (V c main_arg0) (V c main_arg1) b _ (tile h8192 (colT (n + 1)) k)) = _
      rw [hprev, hrow, hcol, hmod]
      exact (partialInf_succ _ (n % 16) hj).symm

/-- WHAT A LAST COLUMN TILE WRITES BACK is its row tile's block of the nearest-neighbour array. -/
theorem flushed0_eq (c : Dev nD) (t : Fin cfg0.N) (hf : (cfg0.win 2).flush t = true) :
    (dat0 (F := Ideal) V c).flushed 2 t
      = ((cfg0.win 2).blk t).view.read (Elt Ideal) (nearestArr (V c main_arg0) (V c main_arg1)) := by
  have h15 : t.val % 16 = 15 := (flush0_2 t).mp hf
  obtain ⟨-, -, -, -, -, -, e0, e1⟩ := idx_facts0 t
  show (cfg0.win 2).cut (grid0.coords t) ((dat0 (F := Ideal) V c).after 2 t) = _
  rw [after0_2]
  funext y
  obtain ⟨b, r, rfl⟩ : ∃ (b : Fin 4) (r : Fin 512), y = ix2 b r := ⟨y 0, y 1, eq_ix2 y⟩
  rw [View.read_apply]
  show accAt0 V c t.val t.isLt (ix2 b r) = nearestArr (V c main_arg0) (V c main_arg1) (((cfg0.win 2).blk t).view.emb (ix2 b r))
  have hemb : ((cfg0.win 2).blk t).view.emb (ix2 b r) = ix2 b (tile h8192 (rowT t.val (lt256_0 t)) r) := by
    have hv := tile_val' (rowT t.val (lt256_0 t)) r
    refine funext fun a => Fin.ext ?_
    match a with
    | ⟨0, _⟩ => show win0_2.index t (0 : Fin 2) * 4 + 1 * b.val = b.val; rw [e0]; omega
    | ⟨1, _⟩ => show win0_2.index t (1 : Fin 2) * 512 + 1 * r.val = (tile h8192 (rowT t.val (lt256_0 t)) r).val; rw [e1, hv]; show _ = 512 * (t.val / 16) + r.val; omega
  rw [hemb, nearestArr_apply, acc0 V c b r t.val t.isLt, h15, partialInf_last]
  rfl

/-- An index of the output array is in point t's block iff each coordinate is in the block's range on its axis. -/
theorem mem_blk0 (t : Fin cfg0.N) (i : S4x8192.Idx) :
    i ∈ ((cfg0.win 2).blk t).view.set ↔ ∀ a : Fin 2, win0_2.index t a * S4x512.size a ≤ (i a).val ∧ (i a).val < win0_2.index t a * S4x512.size a + S4x512.size a := by
  show i ∈ ((View.whole main_v0).slice (win0_2.rect t)).set ↔ _
  rw [View.set_slice_whole, Rect.mem_set_unit]
  exact Iff.rfl

/-- Every index of the output array is in the block of its row tile's last column tile, which writes back. -/
theorem cover0 (i : S4x8192.Idx) : ∃ t : Fin cfg0.N, (cfg0.win 2).flush t = true ∧ i ∈ ((cfg0.win 2).blk t).view.set := by
  have hi0 : (i 0).val < 4 := (i 0).isLt
  have hi1 : (i 1).val < 8192 := (i 1).isLt
  have hN : cfg0.N = 256 := N_0
  refine ⟨⟨16 * ((i 1).val / 512) + 15, by rw [hN]; omega⟩, (flush0_2 _).mpr (by show (16 * ((i 1).val / 512) + 15) % 16 = 15; omega), ?_⟩
  rw [mem_blk0]
  obtain ⟨-, -, -, -, -, -, e0, e1⟩ := idx_facts0 ⟨16 * ((i 1).val / 512) + 15, by rw [hN]; omega⟩
  intro a
  match a with
  | ⟨0, _⟩ =>
    show win0_2.index _ (0 : Fin 2) * 4 ≤ (i 0).val ∧ (i 0).val < win0_2.index _ (0 : Fin 2) * 4 + 4
    rw [e0]; omega
  | ⟨1, _⟩ =>
    show win0_2.index _ (1 : Fin 2) * 512 ≤ (i 1).val ∧ (i 1).val < win0_2.index _ (1 : Fin 2) * 512 + 512
    rw [e1]; show (16 * ((i 1).val / 512) + 15) / 16 * 512 ≤ (i 1).val ∧ (i 1).val < (16 * ((i 1).val / 512) + 15) / 16 * 512 + 512; omega

/-- THE OUTPUT ARRAY after the call: the nearest-neighbour array of the first cloud against the second. -/
theorem final0 (c : Dev nD) : (dat0 (F := Ideal) V c).arrAt 2 cfg0.N = Cert.Chamfer.nearestArr (V c main_arg0) (V c main_arg1) :=
  (dat0 (F := Ideal) V c).arrAt_eq_of_cover 2 _ (fun t ht => flushed0_eq V c t ht) cover0

/-! # Call 1 -/

/-- The printed index maps, decided over the grid: the first window's block is at the row tile, the second's at the
    column tile, the output's at the row tile. -/
theorem idx_facts1 : ∀ t : Fin cfg1.N,
    win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val % 16 ∧ win1_1.index t (2 : Fin 3) = 0
    ∧ win1_2.index t (0 : Fin 2) = 0 ∧ win1_2.index t (1 : Fin 2) = t.val / 16 :=
  (by decide +kernel : ∀ t : Fin grid1.N, _)

theorem lt256_1 (t : Fin cfg1.N) : t.val < 256 := lt_of_lt_of_eq t.isLt (show cfg1.N = 256 from N_1)

/-- The first window's block at point t holds the points of the row tile t / 16. -/
theorem rowBlk1 (c : Dev nD) (t : Fin cfg1.N) (b : Fin 4) (r : Fin 512) (d : Fin 3) :
    iblk1 V c 0 t (ix3 b r d) = (V c main_arg1 : S4x8192x3.Idx → EReal) (ix3 b (tile h8192 (rowT t.val (lt256_1 t)) r) d) := by
  obtain ⟨e0, e1, e2, -, -, -, -, -⟩ := idx_facts1 t
  have hv := tile_val' (rowT t.val (lt256_1 t)) r
  unfold iblk1
  rw [View.read_apply]
  show (V c main_arg1 : S4x8192x3.Idx → EReal) (((cfg1.win 0).blk t).view.emb (ix3 b r d)) = _
  refine congrArg _ (funext fun a => Fin.ext ?_)
  match a with
  | ⟨0, _⟩ => show win1_0.index t (0 : Fin 3) * 4 + 1 * b.val = b.val; rw [e0]; omega
  | ⟨1, _⟩ => show win1_0.index t (1 : Fin 3) * 512 + 1 * r.val = (tile h8192 (rowT t.val (lt256_1 t)) r).val; rw [e1, hv]; show _ = 512 * (t.val / 16) + r.val; omega
  | ⟨2, _⟩ => show win1_0.index t (2 : Fin 3) * 3 + 1 * d.val = d.val; rw [e2]; omega

/-- The second window's block at point t holds the points of the column tile t % 16. -/
theorem colBlk1 (c : Dev nD) (t : Fin cfg1.N) (b : Fin 4) (k : Fin 512) (d : Fin 3) :
    iblk1 V c 1 t (ix3 b k d) = (V c main_arg0 : S4x8192x3.Idx → EReal) (ix3 b (tile h8192 (colT t.val) k) d) := by
  obtain ⟨-, -, -, e0, e1, e2, -, -⟩ := idx_facts1 t
  have hv := tile_val' (colT t.val) k
  unfold iblk1
  rw [View.read_apply]
  show (V c main_arg0 : S4x8192x3.Idx → EReal) (((cfg1.win 1).blk t).view.emb (ix3 b k d)) = _
  refine congrArg _ (funext fun a => Fin.ext ?_)
  match a with
  | ⟨0, _⟩ => show win1_1.index t (0 : Fin 3) * 4 + 1 * b.val = b.val; rw [e0]; omega
  | ⟨1, _⟩ => show win1_1.index t (1 : Fin 3) * 512 + 1 * k.val = (tile h8192 (colT t.val) k).val; rw [e1, hv]; show _ = 512 * (t.val % 16) + k.val; omega
  | ⟨2, _⟩ => show win1_1.index t (2 : Fin 3) * 3 + 1 * d.val = d.val; rw [e2]; omega

/-- So the block distances at point t are the clouds' clamped squared distances between the row tile's points and the
    column tile's points. -/
theorem blkDist1 (c : Dev nD) (t : Fin cfg1.N) (b : Fin 4) (r k : Fin 512) :
    blkDist (iblk1 V c 0 t) (iblk1 V c 1 t) b r k
      = Cert.Chamfer.dist (V c main_arg1) (V c main_arg0) b (tile h8192 (rowT t.val (lt256_1 t)) r) (tile h8192 (colT t.val) k) := by
  have hx : blkSq (iblk1 V c 0 t) b r = Cert.Chamfer.sqNorm (V c main_arg1) b (tile h8192 (rowT t.val (lt256_1 t)) r) :=
    Finset.sum_congr rfl fun d _ => by rw [rowBlk1 V c t b r d]
  have hy : blkSq (iblk1 V c 1 t) b k = Cert.Chamfer.sqNorm (V c main_arg0) b (tile h8192 (colT t.val) k) :=
    Finset.sum_congr rfl fun d _ => by rw [colBlk1 V c t b k d]
  have hxy : blkInner (iblk1 V c 0 t) (iblk1 V c 1 t) b r k
      = Cert.Chamfer.inner (V c main_arg1) (V c main_arg0) b (tile h8192 (rowT t.val (lt256_1 t)) r) (tile h8192 (colT t.val) k) :=
    Finset.sum_congr rfl fun d _ => by rw [rowBlk1 V c t b r d, colBlk1 V c t b k d]
  unfold blkDist Cert.Chamfer.dist
  rw [hx, hy, hxy]

/-- One step at point t: the running value lowered by the column tile's infimum of the distances from the row's point. -/
theorem step1 (c : Dev nD) (t : Fin cfg1.N) (prev : Vec Ideal S4x512 .f32) (b : Fin 4) (r : Fin 512) :
    k0_pay2 (F := Ideal) (iblk1 V c 0 t) (iblk1 V c 1 t) prev (ix2 b r)
      = min (prev (ix2 b r)) (⨅ k : Fin 512, Cert.Chamfer.dist (V c main_arg1) (V c main_arg0) b (tile h8192 (rowT t.val (lt256_1 t)) r) (tile h8192 (colT t.val) k)) :=
  (pay2_at _ _ prev b r).trans (congrArg (min (prev (ix2 b r))) (iInf_congr fun k => blkDist1 V c t b r k))

/-- THE INVARIANT: after point n the running minimum at (b, r) is the infimum of the distances from point r of the row
    tile n / 16 to the points of the column tiles 0 … n % 16. -/
theorem acc1 (c : Dev nD) (b : Fin 4) (r : Fin 512) : ∀ (n : ℕ) (hn : n < cfg1.N),
    accAt1 V c n hn (ix2 b r)
      = partialInf (fun mm => Cert.Chamfer.dist (V c main_arg1) (V c main_arg0) b (tile h8192 (rowT n (lt256_1 ⟨n, hn⟩)) r) mm) (n % 16) := by
  intro n
  induction n with
  | zero =>
    intro hn
    refine (congrFun (accAt1_first V c ⟨0, hn⟩ rfl) (ix2 b r)).trans ?_
    refine (step1 V c ⟨0, hn⟩ _ b r).trans ?_
    rw [pay1_at]
    exact (partialInf_zero _).symm
  | succ n ih =>
    intro hn
    by_cases h : (n + 1) % 16 = 0
    · refine (congrFun (accAt1_first V c ⟨n + 1, hn⟩ h) (ix2 b r)).trans ?_
      refine (step1 V c ⟨n + 1, hn⟩ _ b r).trans ?_
      rw [pay1_at, h]
      have hc : colT (n + 1) = 0 := Fin.ext h
      show min ⊤ (⨅ k : Fin 512, Cert.Chamfer.dist (V c main_arg1) (V c main_arg0) b _ (tile h8192 (colT (n + 1)) k)) = _
      rw [hc]
      exact (partialInf_zero _).symm
    · refine (congrFun (accAt1_next V c ⟨n + 1, hn⟩ h) (ix2 b r)).trans ?_
      refine (step1 V c ⟨n + 1, hn⟩ _ b r).trans ?_
      have hprev := ih (Nat.lt_of_succ_lt hn)
      have h256 : n + 1 < 256 := lt256_1 ⟨n + 1, hn⟩
      have hrow : rowT n (lt256_1 ⟨n, Nat.lt_of_succ_lt hn⟩) = rowT (n + 1) h256 := Fin.ext (by show n / 16 = (n + 1) / 16; omega)
      have hj : n % 16 + 1 < 16 := by omega
      have hcol : colT (n + 1) = ⟨n % 16 + 1, hj⟩ := Fin.ext (by show (n + 1) % 16 = n % 16 + 1; omega)
      have hmod : (n + 1) % 16 = n % 16 + 1 := by omega
      show min (accAt1 V c n (Nat.lt_of_succ_lt hn) (ix2 b r)) (⨅ k : Fin 512, Cert.Chamfer.dist (V c main_arg1) (V c main_arg0) b _ (tile h8192 (colT (n + 1)) k)) = _
      rw [hprev, hrow, hcol, hmod]
      exact (partialInf_succ _ (n % 16) hj).symm

/-- WHAT A LAST COLUMN TILE WRITES BACK is its row tile's block of the nearest-neighbour array. -/
theorem flushed1_eq (c : Dev nD) (t : Fin cfg1.N) (hf : (cfg1.win 2).flush t = true) :
    (dat1 (F := Ideal) V c).flushed 2 t
      = ((cfg1.win 2).blk t).view.read (Elt Ideal) (nearestArr (V c main_arg1) (V c main_arg0)) := by
  have h15 : t.val % 16 = 15 := (flush1_2 t).mp hf
  obtain ⟨-, -, -, -, -, -, e0, e1⟩ := idx_facts1 t
  show (cfg1.win 2).cut (grid1.coords t) ((dat1 (F := Ideal) V c).after 2 t) = _
  rw [after1_2]
  funext y
  obtain ⟨b, r, rfl⟩ : ∃ (b : Fin 4) (r : Fin 512), y = ix2 b r := ⟨y 0, y 1, eq_ix2 y⟩
  rw [View.read_apply]
  show accAt1 V c t.val t.isLt (ix2 b r) = nearestArr (V c main_arg1) (V c main_arg0) (((cfg1.win 2).blk t).view.emb (ix2 b r))
  have hemb : ((cfg1.win 2).blk t).view.emb (ix2 b r) = ix2 b (tile h8192 (rowT t.val (lt256_1 t)) r) := by
    have hv := tile_val' (rowT t.val (lt256_1 t)) r
    refine funext fun a => Fin.ext ?_
    match a with
    | ⟨0, _⟩ => show win1_2.index t (0 : Fin 2) * 4 + 1 * b.val = b.val; rw [e0]; omega
    | ⟨1, _⟩ => show win1_2.index t (1 : Fin 2) * 512 + 1 * r.val = (tile h8192 (rowT t.val (lt256_1 t)) r).val; rw [e1, hv]; show _ = 512 * (t.val / 16) + r.val; omega
  rw [hemb, nearestArr_apply, acc1 V c b r t.val t.isLt, h15, partialInf_last]
  rfl

/-- An index of the output array is in point t's block iff each coordinate is in the block's range on its axis. -/
theorem mem_blk1 (t : Fin cfg1.N) (i : S4x8192.Idx) :
    i ∈ ((cfg1.win 2).blk t).view.set ↔ ∀ a : Fin 2, win1_2.index t a * S4x512.size a ≤ (i a).val ∧ (i a).val < win1_2.index t a * S4x512.size a + S4x512.size a := by
  show i ∈ ((View.whole main_v1).slice (win1_2.rect t)).set ↔ _
  rw [View.set_slice_whole, Rect.mem_set_unit]
  exact Iff.rfl

/-- Every index of the output array is in the block of its row tile's last column tile, which writes back. -/
theorem cover1 (i : S4x8192.Idx) : ∃ t : Fin cfg1.N, (cfg1.win 2).flush t = true ∧ i ∈ ((cfg1.win 2).blk t).view.set := by
  have hi0 : (i 0).val < 4 := (i 0).isLt
  have hi1 : (i 1).val < 8192 := (i 1).isLt
  have hN : cfg1.N = 256 := N_1
  refine ⟨⟨16 * ((i 1).val / 512) + 15, by rw [hN]; omega⟩, (flush1_2 _).mpr (by show (16 * ((i 1).val / 512) + 15) % 16 = 15; omega), ?_⟩
  rw [mem_blk1]
  obtain ⟨-, -, -, -, -, -, e0, e1⟩ := idx_facts1 ⟨16 * ((i 1).val / 512) + 15, by rw [hN]; omega⟩
  intro a
  match a with
  | ⟨0, _⟩ =>
    show win1_2.index _ (0 : Fin 2) * 4 ≤ (i 0).val ∧ (i 0).val < win1_2.index _ (0 : Fin 2) * 4 + 4
    rw [e0]; omega
  | ⟨1, _⟩ =>
    show win1_2.index _ (1 : Fin 2) * 512 ≤ (i 1).val ∧ (i 1).val < win1_2.index _ (1 : Fin 2) * 512 + 512
    rw [e1]; show (16 * ((i 1).val / 512) + 15) / 16 * 512 ≤ (i 1).val ∧ (i 1).val < (16 * ((i 1).val / 512) + 15) / 16 * 512 + 512; omega

/-- THE OUTPUT ARRAY after the call: the nearest-neighbour array of the first cloud against the second. -/
theorem final1 (c : Dev nD) : (dat1 (F := Ideal) V c).arrAt 2 cfg1.N = Cert.Chamfer.nearestArr (V c main_arg1) (V c main_arg0) :=
  (dat1 (F := Ideal) V c).arrAt_eq_of_cover 2 _ (fun t ht => flushed1_eq V c t ht) cover1

end Cert.KernelIdeal.Val

end
-- ==== Proof.KernelResult.lean ====
import proofs.«112426_j38843684225041_1_alg».proof.Proof.KernelIdeal.Run
import proofs.«112426_j38843684225041_1_alg».proof.Proof.KernelValue
import proofs.«112426_j38843684225041_1_alg».proof.Proof.Spec
import Idealize.ShloMosaic.Lib.StableHlo.Run

set_option maxRecDepth 16384

noncomputable section

/-
  The idealized kernel program's result. After the two calls the buffers main_v0 and main_v1 hold the
  nearest-neighbour arrays of the first cloud against the second and of the second against the first; the thirteen host
  operations that follow take the square roots, the two means, add them and halve: the Chamfer value of the two clouds.
-/
namespace Cert.KernelIdeal.Val

open Cert.KernelIdeal Cert.KernelIdeal.Gen Cert.KernelIdeal.Body
open Idealize.ShloMosaic Idealize.ShloMosaic.TcCoe Idealize.SL.Sem Idealize.ShloMosaic.StableHlo

variable (m : (ℓ : Loc nD τ sig) → Buf (Elt Ideal) ℓ)

/-- After both calls main_v0 holds the nearest-neighbour array of the first cloud against the second. -/
theorem v0_eq (c : Dev nD) :
    W2 m c (Proc.devRef .tc main_v0) = Cert.Chamfer.nearestArr (m ((c : Thread nD τ).loc main_arg0)) (m ((c : Thread nD τ).loc main_arg1)) :=
  (W2_of_ne m c main_v0 (by decide)).trans ((W1_arr m c 2).trans (final0 (V0 m) c))

/-- After both calls main_v1 holds the nearest-neighbour array of the second cloud against the first. -/
theorem v1_eq (c : Dev nD) :
    W2 m c (Proc.devRef .tc main_v1) = Cert.Chamfer.nearestArr (m ((c : Thread nD τ).loc main_arg1)) (m ((c : Thread nD τ).loc main_arg0)) := by
  refine (W2_arr m c 2).trans ((final1 (V1 m) c).trans ?_)
  rw [show V1 m c main_arg1 = m ((c : Thread nD τ).loc main_arg1) from W1_main_arg1 m c,
    show V1 m c main_arg0 = m ((c : Thread nD τ).loc main_arg0) from W1_main_arg0 m c]

/-- The host operations' result is half the sum of the means of the square roots of main_v0 and main_v1. -/
theorem v9_tail (c : Dev nD) :
    W3 m c (Proc.devRef .tc main_v9)
      = Cert.Chamfer.halfMeans Facts₀.reducesTo_S4x8192_S_d0_1 Facts₀.h_S_ (W2 m c (Proc.devRef .tc main_v0)) (W2 m c (Proc.devRef .tc main_v1)) := by
  show StableHlo.after hostOps2 (W2 m c) (Proc.devRef .tc main_v9) = _
  after_results
  rfl

/-- THE RESULT: the Chamfer value of the two argument clouds. -/
theorem result_eq (c : Dev nD) :
    W3 m c (Proc.devRef .tc main_v9)
      = Cert.Chamfer.chamfer Facts₀.reducesTo_S4x8192_S_d0_1 Facts₀.h_S_ (m ((c : Thread nD τ).loc main_arg0)) (m ((c : Thread nD τ).loc main_arg1)) := by
  rw [v9_tail, v0_eq, v1_eq]; rfl

end Cert.KernelIdeal.Val

end
-- ==== Proof.RefValue.lean ====
/-
  The reference's value, read as the Chamfer distance of the specification.

  The reference forms, for every batch b and every pair of points (n, m), the clamped squared distance
    max ((‖x_n‖² + ‖y_m‖²) − 2·⟨x_n, y_m⟩) 0
  from two sums of squares over the three coordinates (each a sum started from 0), spread along the missing point axis,
  and a contraction over the coordinate axis; it then takes the minimum from +∞ over m (the last axis) and over n (the
  middle axis), and halves the sum of the means of the square roots. Read at an index, the first minimum is the
  infimum over m of the clamped distance from x_n to y_m, the nearest-neighbour value of x against y; the second is the
  infimum over n, which the symmetry of the clamped distance turns into the nearest-neighbour value of y against x.
-/
import proofs.«112426_j38843684225041_1_alg».proof.Proof.Gen.ReferenceIdeal.Read
import proofs.«112426_j38843684225041_1_alg».proof.Proof.Spec
import proofs.«112426_j38843684225041_1_alg».proof.Proof.LibMinOps

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## The index maps of the layout operations, at an index given by its coordinates -/

/-- Point n of batch b with coordinate k put back is (b, n, k). -/
theorem idx_v1 (b : Fin 4) (n : Fin 8192) (k : Fin 3) : idx_main_v1 (ix2 b n) k = ix3 b n k :=
  funext fun a => Fin.ext (by match a with | ⟨0, _⟩ => rfl | ⟨1, _⟩ => rfl | ⟨2, _⟩ => rfl)

theorem idx_v3 (b : Fin 4) (m : Fin 8192) (k : Fin 3) : idx_main_v3 (ix2 b m) k = ix3 b m k :=
  funext fun a => Fin.ext (by match a with | ⟨0, _⟩ => rfl | ⟨1, _⟩ => rfl | ⟨2, _⟩ => rfl)

/-- The contraction reads x at (b, n, k) … -/
theorem lidx_v4 (b : Fin 4) (n m : Fin 8192) (k : Fin 3) : lidx_main_v4 (ix3 b n m) k = ix3 b n k :=
  funext fun a => Fin.ext (by match a with | ⟨0, _⟩ => rfl | ⟨1, _⟩ => rfl | ⟨2, _⟩ => rfl)

/-- … and y at (b, m, k). -/
theorem ridx_v4 (b : Fin 4) (n m : Fin 8192) (k : Fin 3) : ridx_main_v4 (ix3 b n m) k = ix3 b m k :=
  funext fun a => Fin.ext (by match a with | ⟨0, _⟩ => rfl | ⟨1, _⟩ => rfl | ⟨2, _⟩ => rfl)

/-- The squared norms of x, spread along m, are read at (b, n). -/
theorem idx_v7_v5 (b : Fin 4) (n m : Fin 8192) : idx_main_v5 (idx_main_v7 (ix3 b n m)) = ix2 b n :=
  funext fun a => Fin.ext (by match a with | ⟨0, _⟩ => rfl | ⟨1, _⟩ => rfl)

/-- The squared norms of y, spread along n, are read at (b, m). -/
theorem idx_v8_v6 (b : Fin 4) (n m : Fin 8192) : idx_main_v6 (idx_main_v8 (ix3 b n m)) = ix2 b m :=
  funext fun a => Fin.ext (by match a with | ⟨0, _⟩ => rfl | ⟨1, _⟩ => rfl)

/-! ## The pairwise stage at an index -/

/-- The sum of squares of x from 0, at (b, n): the squared norm of point n. -/
theorem sqx_at (x : (⟨S4x8192x3, .f32⟩ : BufTy).Contents (Elt Ideal)) (b : Fin 4) (n : Fin 8192) :
    val_main_v1 (F := Ideal) x (ix2 b n) = Cert.Chamfer.sqNorm x b n := by
  rw [val_main_v1_apply, val_main_cst_apply]
  simp only [val_main_v0_apply, idx_v1, Ideal.ofBits_def, Ideal.mulf_def, Ideal.ofBits_zero_f32, zero_add]
  rfl

/-- The sum of squares of y from 0, at (b, m): the squared norm of point m. -/
theorem sqy_at (y : (⟨S4x8192x3, .f32⟩ : BufTy).Contents (Elt Ideal)) (b : Fin 4) (m : Fin 8192) :
    val_main_v3 (F := Ideal) y (ix2 b m) = Cert.Chamfer.sqNorm y b m := by
  rw [val_main_v3_apply, val_main_cst_0_apply]
  simp only [val_main_v2_apply, idx_v3, Ideal.ofBits_def, Ideal.mulf_def, Ideal.ofBits_zero_f32, zero_add]
  rfl

/-- The contraction over the coordinate axis, at (b, n, m): the inner product of x_n and y_m. -/
theorem inner_at (x y : (⟨S4x8192x3, .f32⟩ : BufTy).Contents (Elt Ideal)) (b : Fin 4) (n m : Fin 8192) :
    val_main_v4 (F := Ideal) x y (ix3 b n m) = Cert.Chamfer.inner x y b n m := by
  rw [val_main_v4_apply]
  simp only [lidx_v4, ridx_v4]
  rfl

/-- The clamped squared distance, at (b, n, m). -/
theorem dist_at (x y : (⟨S4x8192x3, .f32⟩ : BufTy).Contents (Elt Ideal)) (b : Fin 4) (n m : Fin 8192) :
    val_main_v14 (F := Ideal) x y (ix3 b n m) = Cert.Chamfer.dist x y b n m := by
  rw [val_main_v14_apply, val_main_v12_apply, val_main_v9_apply, val_main_v7_apply, val_main_v5_apply, val_main_v8_apply,
    val_main_v6_apply, val_main_v11_apply, val_main_v10_apply, val_main_v13_apply, val_main_cst_1_apply, val_main_cst_2_apply,
    idx_v7_v5, idx_v8_v6, sqx_at, sqy_at, inner_at]
  rfl

/-! ## The two minima -/

/-- The minimum over the points of y: the nearest-neighbour array of x against y. -/
theorem dist1_eq (x y : (⟨S4x8192x3, .f32⟩ : BufTy).Contents (Elt Ideal)) :
    val_main_v15 (F := Ideal) x y = Cert.Chamfer.nearestArr x y := by
  funext j
  obtain ⟨b, n, rfl⟩ : ∃ (b : Fin 4) (n : Fin 8192), j = ix2 b n := ⟨j 0, j 1, eq_ix2 j⟩
  rw [Cert.Chamfer.nearestArr_apply]
  unfold val_main_v15 Cert.Chamfer.nearest
  refine (MinOps.hostMin_last (a := 4) (b := 8192) (c := 8192) (val_main_v14 (F := Ideal) x y) (val_main_cst_3 (F := Ideal))
    reducesTo_S4x8192x8192_S4x8192_d2 (by decide) h_S_ ?_ b n).trans ?_
  · rw [val_main_cst_3_apply]; exact MinOps.ofBits_posInf
  · exact iInf_congr fun m => dist_at x y b n m

/-- The minimum over the points of x: the nearest-neighbour array of y against x. -/
theorem dist2_eq (x y : (⟨S4x8192x3, .f32⟩ : BufTy).Contents (Elt Ideal)) :
    val_main_v16 (F := Ideal) x y = Cert.Chamfer.nearestArr y x := by
  funext j
  obtain ⟨b, m, rfl⟩ : ∃ (b : Fin 4) (m : Fin 8192), j = ix2 b m := ⟨j 0, j 1, eq_ix2 j⟩
  rw [Cert.Chamfer.nearestArr_apply]
  unfold val_main_v16
  refine (MinOps.hostMin_mid (a := 4) (b := 8192) (c := 8192) (val_main_v14 (F := Ideal) x y) (val_main_cst_4 (F := Ideal))
    reducesTo_S4x8192x8192_S4x8192_d1 (by decide) h_S_ ?_ b m).trans ?_
  · rw [val_main_cst_4_apply]; exact MinOps.ofBits_posInf
  · exact (iInf_congr fun n => dist_at x y b n m).trans (Cert.Chamfer.iInf_dist_swap x y b m)

/-! ## The result -/

/-- The reference's result is the Chamfer value of the two clouds. -/
theorem result_eq (x y : (⟨S4x8192x3, .f32⟩ : BufTy).Contents (Elt Ideal)) :
    val_main_v24 (F := Ideal) x y
      = Cert.Chamfer.chamfer Cert.ReferenceIdeal.Facts₀.reducesTo_S4x8192_S_d0_1 Cert.ReferenceIdeal.Facts₀.h_S_ x y := by
  unfold val_main_v24 val_main_v23 val_main_v22 val_main_v21 val_main_v20 val_main_v19 val_main_v18 val_main_v17
  rw [dist1_eq, dist2_eq]
  rfl

end Cert.ReferenceIdeal.RefValue

end
-- ==== Proof.lean ====
/-
  The Chamfer distance of two point clouds (4 batches of 8192 points in ℝ³): a kernel program of two pipelined calls —
  nearest-neighbour squared distances of the first cloud in the second, then of the second in the first, each as a
  running minimum over 16 × 16 tiles of 512 × 512 clamped squared distances ‖x‖² + ‖y‖² − 2⟨x, y⟩ kept in a scratch
  buffer — followed on the host by the square roots, the two means and half their sum, against a reference that forms
  the whole 8192 × 8192 distance matrix once and minimises it along either axis.

  Frames: each call's region is run point by point against an invariant that names the scratch's running minimum;
  the two regions and the host operations are chained through the contents of the unscoped buffers. The program text
  read at the word-level instance and at the ideal instance is the same, so both frames are one argument.
  Value: at the ideal instance the running minimum after the last column tile is the infimum over all 8192 points
  (a minimum regroups freely), the second call's distances are the first call's with the clouds swapped (+ and · commute;
  no finiteness is needed), and both programs end with the same host operations on the same two arrays.
-/
import proofs.«112426_j38843684225041_1_alg».proof.Defs
import proofs.«112426_j38843684225041_1_alg».proof.Proof.Gen.Kernel
import proofs.«112426_j38843684225041_1_alg».proof.Proof.Gen.KernelIdeal
import proofs.«112426_j38843684225041_1_alg».proof.Proof.Gen.ReferenceIdeal
import proofs.«112426_j38843684225041_1_alg».proof.Proof.Gen.Pre_finite_inputs
import proofs.«112426_j38843684225041_1_alg».proof.Proof.Kernel.Run
import proofs.«112426_j38843684225041_1_alg».proof.Proof.KernelIdeal.Run
import proofs.«112426_j38843684225041_1_alg».proof.Proof.KernelResult
import proofs.«112426_j38843684225041_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame (F := Bits) m ρ

theorem frame_ki : Cert.frame_KernelIdeal := fun m ρ _ => Cert.KernelIdeal.Body.frame (F := Ideal) m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end at the Chamfer value of the two argument clouds. -/
theorem algebraic : Cert.algebraic_KernelIdeal_ReferenceIdeal := by
  intro m ρ m' ρ' _ hagree
  refine ⟨fun c => Cert.Chamfer.chamfer Cert.KernelIdeal.Facts₀.reducesTo_S4x8192_S_d0_1 Cert.KernelIdeal.Facts₀.h_S_
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Body.run_main (F := Ideal) m ρ)
    · exact (h c _ (Cert.KernelIdeal.Body.mem_uc Cert.KernelIdeal.main_v9 (by decide))).trans (Cert.KernelIdeal.Val.result_eq m c)
    · exact (h c _ (Cert.KernelIdeal.Body.mem_uc Cert.KernelIdeal.main_arg0 (by decide))).trans (Cert.KernelIdeal.Body.W3_main_arg0 m c)
    · exact (h c _ (Cert.KernelIdeal.Body.mem_uc Cert.KernelIdeal.main_arg1 (by decide))).trans (Cert.KernelIdeal.Body.W3_main_arg1 m c)
  · refine (θ_run Cert.ReferenceIdeal.defs _ _).mono (fun _ h c => ⟨?_, (h c).2⟩) (Cert.ReferenceIdeal.Value.run (F := Ideal) m' ρ')
    rw [(h c).1, Cert.ReferenceIdeal.Read.val_main_v24_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
